-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 60
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x64, .f32⟩
  | .hbm, ⟨43, _⟩ => ⟨S100000x64, .bf16⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .bf16⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x64, .f32⟩
  | .local _ .vmem, ⟨10, _⟩ => ⟨S4000x128, .f32⟩
  | .local _ .vmem, ⟨11, _⟩ => ⟨S4000x128, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x1, .f32⟩
  | .local _ .vmem, ⟨17, _⟩ => ⟨S4000x1, .f32⟩
  | .local _ .vmem, ⟨18, _⟩ => ⟨S4000x128, .f32⟩
  | .local _ .vmem, ⟨19, _⟩ => ⟨S4000x128, .f32⟩
  | .local _ .vmem, ⟨20, _⟩ => ⟨S128x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S100000x64.size a
  hwx0_8 : ∀ i : grid0.Coords, EltTy.bits .f32 = 32 ∨ (Rect.block (s := S100000x64) S4000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v38) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  THE IDEALIZED KERNEL'S RUN WITH ITS RESULT NAMED.

  The program is four segments: host operations, the first layer's region, host operations, the second layer's
  region. The buffer contents at the four boundaries are a fold through the program (`Gen.W1` … `Gen.W4`); the
  launch theorem for a chain of segments ends with every unscoped buffer of the TensorCore at the last boundary's
  contents `Gen.W4`. Reading that final state at the result buffer and at the eight arguments gives the run below:
  every weakly fair execution terminates without a fault, the result holds `Gen.W4` at the result buffer, and the
  arguments end as launched.
-/
import proofs.«131433_j38817914421629_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Spec.lean ====
/-
  THE TWO GRAPH-CONVOLUTION LAYERS, ONE ROW AT A TIME, ON THE EXTENDED REALS.

  A node's row of a layer depends on that node's own data only: its aggregated neighbour features `s`, the
  reciprocal `ι` of its (clamped) in-degree, its own features `x`, and the layer's two weight matrices and bias.

  * `layer1`: the hidden feature `q` is max(((∑ k, (s k · ι) · Wl k q) + b q) + ∑ k, x k · Wr k q, 0): the mean of
    the neighbours through `Wl`, plus the bias, plus the node itself through `Wr`, rectified.
  * `proj`: a row `h` through a matrix `W`: ∑ k, h k · W k q.
  * `layer2`: the output feature `q` is ((∑ k, h k · Wr k q) + sp · ι) + b, where `sp` is the node's aggregate of its
    neighbours' PROJECTED hidden rows (the matrix `W2l` applied before the aggregation).
  The same two layers as the reference spells them, dividing the aggregate `s` by the clamped degree `c`:
  * `layer1Ref`: max(((∑ k, (s k / c) · Wl k q) + b q) + ∑ k, x k · Wr k q, 0);
  * `layer2Ref`: ((∑ k, (s k / c) · Wl k q) + b) + ∑ k, h k · Wr k q, with `s` the aggregate of the neighbours' hidden rows.
  `nsum sel g` is a neighbourhood sum: zero plus the messages `g e` of the selected edges.
-/
import Idealize.ShloMosaic.PureOps.Ideal

noncomputable section

open scoped BigOperators

namespace Cert.Sage

open Idealize.ShloMosaic

/-- One row of the first layer, at hidden feature `q`. -/
def layer1 (s : Fin 128 → EReal) (ι : EReal) (x : Fin 128 → EReal) (Wl : Fin 128 → Fin 128 → EReal)
    (b : Fin 128 → EReal) (Wr : Fin 128 → Fin 128 → EReal) (q : Fin 128) : EReal :=
  max (((∑ k, (s k * ι) * Wl k q) + b q) + ∑ k, x k * Wr k q) (Ideal.ofBits .f32 0x00000000#32)

/-- One hidden row through a 128 × 64 matrix, at output feature `q`. -/
def proj (h : Fin 128 → EReal) (W : Fin 128 → Fin 64 → EReal) (q : Fin 64) : EReal :=
  ∑ k, h k * W k q

/-- One row of the second layer, at output feature `q`, from the aggregate `sp` of projected neighbour rows. -/
def layer2 (sp ι : EReal) (h : Fin 128 → EReal) (Wr : Fin 128 → Fin 64 → EReal) (b : EReal) (q : Fin 64) : EReal :=
  ((∑ k, h k * Wr k q) + sp * ι) + b

/-- One row of the first layer as the reference spells it: the aggregate divided by the clamped degree `c`. -/
def layer1Ref (s : Fin 128 → EReal) (c : EReal) (x : Fin 128 → EReal) (Wl : Fin 128 → Fin 128 → EReal)
    (b : Fin 128 → EReal) (Wr : Fin 128 → Fin 128 → EReal) (q : Fin 128) : EReal :=
  max (((∑ k, Ideal.div (s k) c * Wl k q) + b q) + ∑ k, x k * Wr k q) (Ideal.ofBits .f32 0x00000000#32)

/-- One row of the second layer as the reference spells it, from the aggregate `s` of the neighbours' hidden rows. -/
def layer2Ref (s : Fin 128 → EReal) (c : EReal) (h : Fin 128 → EReal) (Wl Wr : Fin 128 → Fin 64 → EReal) (b : EReal)
    (q : Fin 64) : EReal :=
  ((∑ k, Ideal.div (s k) c * Wl k q) + b) + ∑ k, h k * Wr k q

/-- A neighbourhood sum: zero plus the messages of the selected edges. -/
def nsum {E : Type} [Fintype E] (sel : E → Prop) [DecidablePred sel] (g : E → EReal) : EReal :=
  0 + ∑ e, if sel e then g e else 0

end Cert.Sage

end
-- ==== Proof.Payload.lean ====
/-
  WHAT THE TWO KERNEL BODIES COMPUTE, AT AN ENTRY OF THE BLOCK.

  Each body works on a block of 4000 node rows. Read at row `p` and column `q` of the block, on the extended
  reals (where a change of float format is the identity and a matrix product into a zero accumulator is the plain
  sum of products):
  * the first body's hidden block is `Sage.layer1` of row `p` of its operands (`hidden_apply`);
  * its second result is that hidden row through the second layer's left matrix (`projected_apply`);
  * the second body's block is `Sage.layer2` of row `p` of its operands (`output_apply`).
  The column of reciprocal degrees is broadcast along the features, the bias row down the rows.
-/
import proofs.«131433_j38817914421629_2_alg».proof.Proof.Gen.KernelIdeal.Skeleton
import proofs.«131433_j38817914421629_2_alg».proof.Proof.LibLayout
import proofs.«131433_j38817914421629_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Cert.Sage Cert.LibLayout
open Idealize.ShloMosaic Idealize.ShloMosaic.ValueIdx

/-- A bias row `[1, b]` repeated down the rows of `[a, b]` reads, at `(p, c)`, the row's entry `c`. -/
theorem biasRow_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

/-- A column `[a, 1]` broadcast along `b` features reads, at `(p, c)`, the column's entry of row `p`. -/
theorem degreeColumn_apply {a b : ℕ} (v : (⟨2, ![a, 1]⟩ : Shape).Idx → EReal) (h1 : (⟨2, ![a, 1]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix2 p (0 : Fin 1)) := by
  rw [shapeCast_self]
  exact broadcastTo_a1_ab_apply v h2 p c

/-- The first body's hidden block at `(p, q)`: the first layer's row `p`. -/
theorem hidden_apply (v0 : Vec Ideal S4000x128 .f32) (v2 : Vec Ideal S4000x1 .f32) (v7 : Vec Ideal S4000x128 .f32)
    (v9 : Vec Ideal S128x128 .f32) (v11 : Vec Ideal S128x128 .f32) (v14 : Vec Ideal S1x128 .f32) (p : Fin 4000) (q : Fin 128) :
    k0_pay1 (F := Ideal) v0 v2 v7 v9 v11 v14 (ix2 p q)
      = layer1 (fun k => v0 (ix2 p k)) (v2 (ix2 p (0 : Fin 1))) (fun k => v7 (ix2 p k)) (fun k q => v9 (ix2 k q))
          (fun q => v14 (ix2 (0 : Fin 1) q)) (fun k q => v11 (ix2 k q)) q := by
  unfold k0_pay1 layer1
  show max ((matmul (F := Ideal) dot_S4000x128_S128x128_S4000x128_1_0_0_1_n_n none
          (truncf .bf16 (mulf (shapeCast S4000x128 v0 shapeCasts_S4000x128_S4000x128)
            (broadcastTo S4000x128 (shapeCast S4000x1 v2 shapeCasts_S4000x1_S4000x1) broadcasts_S4000x1_S4000x128)) bitsLt_bf16_f32)
          (truncf .bf16 v9 bitsLt_bf16_f32) (constant (F := Ideal) S4000x128 .f32 0x00000000#32) (ix2 p q)
        + broadcastTo S4000x128 (shapeCast S1x128 v14 shapeCasts_S1x128_S1x128) broadcasts_S1x128_S4000x128 (ix2 p q))
        + matmul (F := Ideal) dot_S4000x128_S128x128_S4000x128_1_0_0_1_n_n none (truncf .bf16 v7 bitsLt_bf16_f32)
            (truncf .bf16 v11 bitsLt_bf16_f32) (constant (F := Ideal) S4000x128 .f32 0x00000000#32) (ix2 p q))
      (Ideal.ofBits .f32 0x00000000#32) = _
  refine congrArg₂ max (congrArg₂ (· + ·) (congrArg₂ (· + ·) ?_ ?_) ?_) rfl
  · refine (matmul_rows_cols_apply dot_S4000x128_S128x128_S4000x128_1_0_0_1_n_n rfl rfl rfl rfl (fun _ _ => rfl) (fun _ _ => rfl)
      none _ _ p q).trans (Finset.sum_congr rfl fun k _ => ?_)
    show (shapeCast S4000x128 v0 shapeCasts_S4000x128_S4000x128 (ix2 p k)
          * broadcastTo S4000x128 (shapeCast S4000x1 v2 shapeCasts_S4000x1_S4000x1) broadcasts_S4000x1_S4000x128 (ix2 p k))
          * v9 (ix2 k q)
        = (v0 (ix2 p k) * v2 (ix2 p (0 : Fin 1))) * v9 (ix2 k q)
    refine congrArg₂ (· * ·) (congrArg₂ (· * ·) ?_ ?_) rfl
    · exact congrFun (shapeCast_self (v0 : S4000x128.Idx → EReal) shapeCasts_S4000x128_S4000x128) (ix2 p k)
    · exact degreeColumn_apply (v2 : S4000x1.Idx → EReal) shapeCasts_S4000x1_S4000x1 broadcasts_S4000x1_S4000x128 p k
  · exact biasRow_apply (v14 : S1x128.Idx → EReal) shapeCasts_S1x128_S1x128 broadcasts_S1x128_S4000x128 p q
  · exact matmul_rows_cols_apply dot_S4000x128_S128x128_S4000x128_1_0_0_1_n_n rfl rfl rfl rfl (fun _ _ => rfl) (fun _ _ => rfl)
      none _ _ p q

/-- The first body's second result at `(p, q)`: hidden row `p` through the second layer's left matrix. -/
theorem projected_apply (v0 : Vec Ideal S4000x128 .f32) (v2 : Vec Ideal S4000x1 .f32) (v7 : Vec Ideal S4000x128 .f32)
    (v9 : Vec Ideal S128x128 .f32) (v11 : Vec Ideal S128x128 .f32) (v14 : Vec Ideal S1x128 .f32) (v24 : Vec Ideal S128x64 .f32)
    (p : Fin 4000) (q : Fin 64) :
    k0_pay2 (F := Ideal) v0 v2 v7 v9 v11 v14 v24 (ix2 p q)
      = proj (fun k => k0_pay1 (F := Ideal) v0 v2 v7 v9 v11 v14 (ix2 p k)) (fun k q => v24 (ix2 k q)) q := by
  unfold k0_pay2 proj
  exact matmul_rows_cols_apply dot_S4000x128_S128x64_S4000x64_1_0_0_1_n_n rfl rfl rfl rfl (fun _ _ => rfl) (fun _ _ => rfl)
    none _ _ p q

/-- The second body's block at `(p, q)`: the second layer's row `p`. -/
theorem output_apply (v0 : Vec Ideal S4000x64 .f32) (v2 : Vec Ideal S4000x1 .f32) (v6 : Vec Ideal S4000x128 .f32)
    (v9 : Vec Ideal S128x64 .f32) (v13 : Vec Ideal S1x64 .f32) (p : Fin 4000) (q : Fin 64) :
    k1_pay1 (F := Ideal) v0 v2 v6 v9 v13 (ix2 p q)
      = layer2 (v0 (ix2 p q)) (v2 (ix2 p (0 : Fin 1))) (fun k => v6 (ix2 p k)) (fun k q => v9 (ix2 k q))
          (v13 (ix2 (0 : Fin 1) q)) q := by
  unfold k1_pay1 layer2
  show ((matmul (F := Ideal) dot_S4000x128_S128x64_S4000x64_1_0_0_1_n_n none
          (truncf .bf16 (shapeCast S4000x128 v6 shapeCasts_S4000x128_S4000x128) bitsLt_bf16_f32)
          (truncf .bf16 v9 bitsLt_bf16_f32) (constant (F := Ideal) S4000x64 .f32 0x00000000#32) (ix2 p q)
        + shapeCast S4000x64 v0 shapeCasts_S4000x64_S4000x64 (ix2 p q)
          * broadcastTo S4000x64 (shapeCast S4000x1 v2 shapeCasts_S4000x1_S4000x1) broadcasts_S4000x1_S4000x64 (ix2 p q))
        + broadcastTo S4000x64 (shapeCast S1x64 v13 shapeCasts_S1x64_S1x64) broadcasts_S1x64_S4000x64 (ix2 p q)) = _
  refine congrArg₂ (· + ·) (congrArg₂ (· + ·) ?_ (congrArg₂ (· * ·) ?_ ?_)) ?_
  · refine (matmul_rows_cols_apply dot_S4000x128_S128x64_S4000x64_1_0_0_1_n_n rfl rfl rfl rfl (fun _ _ => rfl) (fun _ _ => rfl)
      none _ _ p q).trans (Finset.sum_congr rfl fun k _ => ?_)
    show shapeCast S4000x128 v6 shapeCasts_S4000x128_S4000x128 (ix2 p k) * v9 (ix2 k q) = v6 (ix2 p k) * v9 (ix2 k q)
    refine congrArg₂ (· * ·) ?_ rfl
    exact congrFun (shapeCast_self (v6 : S4000x128.Idx → EReal) shapeCasts_S4000x128_S4000x128) (ix2 p k)
  · exact congrFun (shapeCast_self (v0 : S4000x64.Idx → EReal) shapeCasts_S4000x64_S4000x64) (ix2 p q)
  · exact degreeColumn_apply (v2 : S4000x1.Idx → EReal) shapeCasts_S4000x1_S4000x1 broadcasts_S4000x1_S4000x64 p q
  · exact biasRow_apply (v13 : S1x64.Idx → EReal) shapeCasts_S1x64_S1x64 broadcasts_S1x64_S4000x64 p q

end Cert.KernelIdeal.Payload

end
-- ==== Proof.Region0Value.lean ====
/-
  THE FIRST REGION'S TWO OUTPUT ARRAYS, AS FUNCTIONS OF THE ARRAYS IT IS ENTERED WITH.

  The region runs the first body at 25 grid points; point `t` works on node rows 4000·t … 4000·t + 3999: the
  aggregate, the reciprocal-degree column, the node features and both outputs move with `t` down the rows, the two
  weight matrices, the bias row and the second layer's left matrix stay put. So the block a point writes back is the
  restriction to its rows of ONE function of the whole arrays: row `r` of the hidden array is the first layer's row
  of node `r` (`hidden`), row `r` of the second output is that hidden row through the second layer's left matrix
  (`projected`). The 25 blocks tile the 100000 rows, so after the region the two arrays hold exactly these functions.
-/
import proofs.«131433_j38817914421629_2_alg».proof.Proof.Gen.KernelIdeal.Frame
import proofs.«131433_j38817914421629_2_alg».proof.Proof.Payload
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.Sage Cert.KernelIdeal.Payload
open Idealize.ShloMosaic Idealize.ShloMosaic.ValueIdx Idealize.ShloMosaic.TcCoe Idealize.SL.Sem
open Idealize.ShloMosaic.Pipeline (Dat)

/-- The hidden array: row `r` is the first layer's row of node `r`. -/
def hidden (S : S100000x128.Idx → EReal) (I : S100000x1.Idx → EReal) (X : S100000x128.Idx → EReal)
    (Wl : S128x128.Idx → EReal) (B : S1x128.Idx → EReal) (Wr : S128x128.Idx → EReal) : S100000x128.Idx → EReal :=
  fun i => layer1 (fun k => S (ix2 (i 0 : Fin 100000) k)) (I (ix2 (i 0 : Fin 100000) (0 : Fin 1)))
    (fun k => X (ix2 (i 0 : Fin 100000) k)) (fun k q => Wl (ix2 k q)) (fun q => B (ix2 (0 : Fin 1) q))
    (fun k q => Wr (ix2 k q)) (i 1 : Fin 128)

/-- A hidden array through a 128 × 64 matrix, row by row. -/
def projected (H : S100000x128.Idx → EReal) (W : S128x64.Idx → EReal) : S100000x64.Idx → EReal :=
  fun i => proj (fun k => H (ix2 (i 0 : Fin 100000) k)) (fun k q => W (ix2 k q)) (i 1 : Fin 64)

theorem hz : (![0, 0] : Fin 2 → Nat) = fun _ => 0 := funext fun a => by fin_cases a <;> rfl

theorem hN : cfg0.N = 25 := N_0

/-- The printed index maps over the grid: the row-blocked windows sit at block row `t`, block column 0; the
    resident ones at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

variable (V : (c : Dev nD) → (b : Ref sig .tc) → Buf (Elt Ideal) ((c : Thread nD τ).loc b))

/-- The global row of block row `p` at point `t`. -/
abbrev row (t : Fin cfg0.N) (p : Fin 4000) : Fin 100000 :=
  ⟨t.val * 4000 + p.val, by have h25 : t.val < 25 := Nat.lt_of_lt_of_eq t.isLt hN; have := p.isLt; omega⟩

/-! ## The blocks the body loads, read off the arrays -/

theorem read0 (c : Dev nD) (t : Fin cfg0.N) (p : Fin 4000) (k : Fin 128) :
    iblk0 V c 0 t (ix2 p k) = V c main_v24 (ix2 (row t p) k) := by
  obtain ⟨⟨e0, e1⟩, -⟩ := index_facts t
  show V c main_v24 (((cfg0.win 0).blk t).view.emb (ix2 p k)) = _
  refine congrArg (V c main_v24) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem read1 (c : Dev nD) (t : Fin cfg0.N) (p : Fin 4000) :
    iblk0 V c 1 t (ix2 p (0 : Fin 1)) = V c main_v12 (ix2 (row t p) (0 : Fin 1)) := by
  obtain ⟨-, ⟨e0, e1⟩, -⟩ := index_facts t
  show V c main_v12 (((cfg0.win 1).blk t).view.emb (ix2 p (0 : Fin 1))) = _
  refine congrArg (V c main_v12) (funext fun a => Fin.ext ?_)
  match a with
  | ⟨0, _⟩ => show win0_1.index t (0 : Fin 2) * 4000 + 1 * p.val = t.val * 4000 + p.val; omega
  | ⟨1, _⟩ => show win0_1.index t (1 : Fin 2) * 1 + 1 * 0 = 0; omega

theorem read2 (c : Dev nD) (t : Fin cfg0.N) (p : Fin 4000) (k : Fin 128) :
    iblk0 V c 2 t (ix2 p k) = V c main_arg0 (ix2 (row t p) k) := by
  obtain ⟨-, -, ⟨e0, e1⟩, -⟩ := index_facts t
  show V c main_arg0 (((cfg0.win 2).blk t).view.emb (ix2 p k)) = _
  refine congrArg (V c main_arg0) (funext fun a => Fin.ext ?_)
  match a with
  | ⟨0, _⟩ => show win0_2.index t (0 : Fin 2) * 4000 + 1 * p.val = t.val * 4000 + p.val; omega
  | ⟨1, _⟩ => show win0_2.index t (1 : Fin 2) * 128 + 1 * k.val = k.val; omega

theorem read3 (c : Dev nD) (t : Fin cfg0.N) (k : Fin 128) (q : Fin 128) :
    iblk0 V c 3 t (ix2 k q) = V c main_arg2 (ix2 k q) := by
  obtain ⟨-, -, -, ⟨e0, e1⟩, -⟩ := index_facts t
  show V c main_arg2 (((cfg0.win 3).blk t).view.emb (ix2 k q)) = _
  refine congrArg (V c main_arg2) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem read4 (c : Dev nD) (t : Fin cfg0.N) (q : Fin 128) :
    iblk0 V c 4 t (ix2 (0 : Fin 1) q) = V c main_v25 (ix2 (0 : Fin 1) q) := by
  obtain ⟨-, -, -, -, ⟨e0, e1⟩, -⟩ := index_facts t
  show V c main_v25 (((cfg0.win 4).blk t).view.emb (ix2 (0 : Fin 1) q)) = _
  refine congrArg (V c main_v25) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

theorem read5 (c : Dev nD) (t : Fin cfg0.N) (k : Fin 128) (q : Fin 128) :
    iblk0 V c 5 t (ix2 k q) = V c main_arg4 (ix2 k q) := by
  obtain ⟨-, -, -, -, -, ⟨e0, e1⟩, -⟩ := index_facts t
  show V c main_arg4 (((cfg0.win 5).blk t).view.emb (ix2 k q)) = _
  refine congrArg (V c main_arg4) (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

theorem read6 (c : Dev nD) (t : Fin cfg0.N) (k : Fin 128) (q : Fin 64) :
    iblk0 V c 6 t (ix2 k q) = V c main_arg5 (ix2 k q) := by
  obtain ⟨-, -, -, -, -, -, ⟨e0, e1⟩, -⟩ := index_facts t
  show V c main_arg5 (((cfg0.win 6).blk t).view.emb (ix2 k q)) = _
  refine congrArg (V c main_arg5) (funext fun a => Fin.ext ?_)
  match a with
  | ⟨0, _⟩ => show win0_6.index t (0 : Fin 2) * 128 + 1 * k.val = k.val; omega
  | ⟨1, _⟩ => show win0_6.index t (1 : Fin 2) * 64 + 1 * q.val = q.val; omega

/-- Where block entry `(p, q)` of the hidden output lies in its array. -/
theorem emb7 (t : Fin cfg0.N) (p : Fin 4000) (q : Fin 128) :
    ((cfg0.win 7).blk t).view.emb (ix2 p q) = ix2 (row t p) q := by
  obtain ⟨-, -, -, -, -, -, -, ⟨e0, e1⟩, -⟩ := index_facts t
  refine funext fun a => Fin.ext ?_
  match a with
  | ⟨0, _⟩ => show win0_7.index t (0 : Fin 2) * 4000 + 1 * p.val = t.val * 4000 + p.val; omega
  | ⟨1, _⟩ => show win0_7.index t (1 : Fin 2) * 128 + 1 * q.val = q.val; omega

/-- Where block entry `(p, q)` of the projected output lies in its array. -/
theorem emb8 (t : Fin cfg0.N) (p : Fin 4000) (q : Fin 64) :
    ((cfg0.win 8).blk t).view.emb (ix2 p q) = ix2 (row t p) q := by
  obtain ⟨-, -, -, -, -, -, -, -, ⟨e0, e1⟩⟩ := index_facts t
  refine funext fun a => Fin.ext ?_
  match a with
  | ⟨0, _⟩ => show win0_8.index t (0 : Fin 2) * 4000 + 1 * p.val = t.val * 4000 + p.val; omega
  | ⟨1, _⟩ => show win0_8.index t (1 : Fin 2) * 64 + 1 * q.val = q.val; omega

/-! ## What a point writes back -/

/-- The body's hidden payload on the point's blocks, at block entry `(p, q)`: the first layer's row of node
    `4000·t + p`, read off the whole arrays. -/
theorem hidden_at (c : Dev nD) (t : Fin cfg0.N) (p : Fin 4000) (q : Fin 128) :
    k0_pay1 (F := Ideal) (iblk0 V c 0 t) (iblk0 V c 1 t) (iblk0 V c 2 t) (iblk0 V c 3 t) (iblk0 V c 5 t) (iblk0 V c 4 t) (ix2 p q)
      = hidden (V c main_v24) (V c main_v12) (V c main_arg0) (V c main_arg2) (V c main_v25) (V c main_arg4) (ix2 (row t p) q) := by
  refine (hidden_apply (iblk0 V c 0 t) (iblk0 V c 1 t) (iblk0 V c 2 t) (iblk0 V c 3 t) (iblk0 V c 5 t) (iblk0 V c 4 t) p q).trans ?_
  show layer1 _ _ _ _ _ _ q = layer1 _ _ _ _ _ _ q
  rw [show (fun k => iblk0 V c 0 t (ix2 p k)) = (fun k => V c main_v24 (ix2 (row t p) k)) from funext fun k => read0 V c t p k,
    read1 V c t p,
    show (fun k => iblk0 V c 2 t (ix2 p k)) = (fun k => V c main_arg0 (ix2 (row t p) k)) from funext fun k => read2 V c t p k,
    show (fun k q => iblk0 V c 3 t (ix2 k q)) = (fun k q => V c main_arg2 (ix2 k q)) from funext fun k => funext fun q => read3 V c t k q,
    show (fun q => iblk0 V c 4 t (ix2 (0 : Fin 1) q)) = (fun q => V c main_v25 (ix2 (0 : Fin 1) q)) from funext fun q => read4 V c t q,
    show (fun k q => iblk0 V c 5 t (ix2 k q)) = (fun k q => V c main_arg4 (ix2 k q)) from funext fun k => funext fun q => read5 V c t k q]

theorem flushed7 (c : Dev nD) (t : Fin cfg0.N) :
    (dat0 V c).flushed 7 t = ((cfg0.win 7).blk t).view.read (Elt Ideal)
      (hidden (V c main_v24) (V c main_v12) (V c main_arg0) (V c main_arg2) (V c main_v25) (V c main_arg4)) := by
  show (cfg0.win 7).cut (grid0.coords t) ((dat0 V c).after 7 t) = _
  rw [after0_7]
  unfold out0_7
  rw [View.canon_unit_zero hz]
  simp only [View.ld_unit_zero (S := S4000x128) hz, View.ld_unit_zero (S := S4000x1) hz, View.ld_unit_zero (S := S128x128) hz,
    View.ld_unit_zero (S := S1x128) hz]
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 3 t) (iblk0 V c 5 t) (iblk0 V c 4 t) (ix2 p q)
    = hidden (V c main_v24) (V c main_v12) (V c main_arg0) (V c main_arg2) (V c main_v25) (V c main_arg4)
        (((cfg0.win 7).blk t).view.emb (ix2 p q))
  rw [emb7]
  exact hidden_at V c t p q

theorem flushed8 (c : Dev nD) (t : Fin cfg0.N) :
    (dat0 V c).flushed 8 t = ((cfg0.win 8).blk t).view.read (Elt Ideal)
      (projected (hidden (V c main_v24) (V c main_v12) (V c main_arg0) (V c main_arg2) (V c main_v25) (V c main_arg4))
        (V c main_arg5)) := by
  show (cfg0.win 8).cut (grid0.coords t) ((dat0 V c).after 8 t) = _
  rw [after0_8]
  unfold out0_8
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S128x64) hz]
  funext j
  obtain ⟨p, q, rfl⟩ : ∃ (p : Fin 4000) (q : Fin 64), j = ix2 p q := ⟨j 0, j 1, eq_ix2 j⟩
  show k0_pay2 (F := Ideal) (iblk0 V c 0 t) (iblk0 V c 1 t) (iblk0 V c 2 t) (iblk0 V c 3 t) (iblk0 V c 5 t) (iblk0 V c 4 t)
      (iblk0 V c 6 t) (ix2 p q)
    = projected (hidden (V c main_v24) (V c main_v12) (V c main_arg0) (V c main_arg2) (V c main_v25) (V c main_arg4))
        (V c main_arg5) (((cfg0.win 8).blk t).view.emb (ix2 p q))
  rw [emb8]
  refine (projected_apply (iblk0 V c 0 t) (iblk0 V c 1 t) (iblk0 V c 2 t) (iblk0 V c 3 t) (iblk0 V c 5 t) (iblk0 V c 4 t)
    (iblk0 V c 6 t) p q).trans ?_
  show proj _ _ q = proj _ _ q
  rw [show (fun k => k0_pay1 (F := Ideal) (iblk0 V c 0 t) (iblk0 V c 1 t) (iblk0 V c 2 t) (iblk0 V c 3 t) (iblk0 V c 5 t)
        (iblk0 V c 4 t) (ix2 p k))
      = (fun k => hidden (V c main_v24) (V c main_v12) (V c main_arg0) (V c main_arg2) (V c main_v25) (V c main_arg4)
          (ix2 (row t p) k)) from funext fun k => hidden_at V c t p k,
    show (fun k q => iblk0 V c 6 t (ix2 k q)) = (fun k q => V c main_arg5 (ix2 k q)) from funext fun k => funext fun q => read6 V c t k q]

/-! ## The blocks tile the rows -/

theorem mem_blk7 (t : Fin cfg0.N) (i : S100000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v26_0).slice (win0_7.rect t)).set ↔ _
  rw [View.set_slice_whole, Rect.mem_set_unit]
  exact Iff.rfl

theorem mem_blk8 (t : Fin cfg0.N) (i : S100000x64.Idx) :
    i ∈ ((cfg0.win 8).blk t).view.set ↔ ∀ a : Fin 2, win0_8.index t a * S4000x64.size a ≤ (i a).val
      ∧ (i a).val < win0_8.index t a * S4000x64.size a + S4000x64.size a := by
  show i ∈ ((View.whole main_v26_1).slice (win0_8.rect t)).set ↔ _
  rw [View.set_slice_whole, Rect.mem_set_unit]
  exact Iff.rfl

/-- Row `r` lies in the block of point `r / 4000`. -/
theorem cover7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have ht : (i 0).val / 4000 < cfg0.N := by rw [hN]; omega
  refine ⟨⟨(i 0).val / 4000, ht⟩, flush0_7 _, ?_⟩
  rw [mem_blk7]
  obtain ⟨-, -, -, -, -, -, -, ⟨e0, e1⟩, -⟩ := index_facts ⟨(i 0).val / 4000, ht⟩
  intro a
  match a with
  | ⟨0, _⟩ =>
    show win0_7.index ⟨(i 0).val / 4000, ht⟩ (0 : Fin 2) * 4000 ≤ (i 0).val
      ∧ (i 0).val < win0_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, ht⟩ (1 : Fin 2) * 128 ≤ (i 1).val
      ∧ (i 1).val < win0_7.index ⟨(i 0).val / 4000, ht⟩ (1 : Fin 2) * 128 + 128
    rw [e1]; omega

theorem cover8 (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  have ht : (i 0).val / 4000 < cfg0.N := by rw [hN]; omega
  refine ⟨⟨(i 0).val / 4000, ht⟩, flush0_8 _, ?_⟩
  rw [mem_blk8]
  obtain ⟨-, -, -, -, -, -, -, -, ⟨e0, e1⟩⟩ := index_facts ⟨(i 0).val / 4000, ht⟩
  intro a
  match a with
  | ⟨0, _⟩ =>
    show win0_8.index ⟨(i 0).val / 4000, ht⟩ (0 : Fin 2) * 4000 ≤ (i 0).val
      ∧ (i 0).val < win0_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_8.index ⟨(i 0).val / 4000, ht⟩ (1 : Fin 2) * 64 ≤ (i 1).val
      ∧ (i 1).val < win0_8.index ⟨(i 0).val / 4000, ht⟩ (1 : Fin 2) * 64 + 64
    rw [e1]; omega

/-! ## The two arrays after the region -/

/-- After the region the hidden array holds the first layer of the arrays the region was entered with. -/
theorem final7 (c : Dev nD) : (dat0 V c).arrAt 7 cfg0.N
    = hidden (V c main_v24) (V c main_v12) (V c main_arg0) (V c main_arg2) (V c main_v25) (V c main_arg4) :=
  (dat0 V c).arrAt_eq_of_cover 7 _ (fun t _ => flushed7 V c t) cover7

/-- After the region the second output holds the hidden array through the second layer's left matrix. -/
theorem final8 (c : Dev nD) : (dat0 V c).arrAt 8 cfg0.N
    = projected (hidden (V c main_v24) (V c main_v12) (V c main_arg0) (V c main_arg2) (V c main_v25) (V c main_arg4))
        (V c main_arg5) :=
  (dat0 V c).arrAt_eq_of_cover 8 _ (fun t _ => flushed8 V c t) cover8

end Cert.KernelIdeal.Region0

end
-- ==== Proof.Region1Value.lean ====
/-
  THE SECOND REGION'S OUTPUT ARRAY, AS A FUNCTION OF THE ARRAYS IT IS ENTERED WITH.

  The region runs the second body at 25 grid points; point `t` works on node rows 4000·t … 4000·t + 3999: the
  aggregate of projected rows, the reciprocal-degree column, the hidden rows and the output move with `t`, the
  right weight matrix and the bias row stay put. The block a point writes back is the restriction to its rows of one
  function of the whole arrays — row `r` is the second layer's row of node `r` (`output`) — and the 25 blocks
  tile the 100000 rows, so after the region the output array holds exactly that function.
-/
import proofs.«131433_j38817914421629_2_alg».proof.Proof.Gen.KernelIdeal.Frame
import proofs.«131433_j38817914421629_2_alg».proof.Proof.Payload
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.Sage Cert.KernelIdeal.Payload
open Idealize.ShloMosaic Idealize.ShloMosaic.ValueIdx Idealize.ShloMosaic.TcCoe Idealize.SL.Sem
open Idealize.ShloMosaic.Pipeline (Dat)

/-- The output array: row `r` is the second layer's row of node `r`. -/
def output (SP : S100000x64.Idx → EReal) (I : S100000x1.Idx → EReal) (H : S100000x128.Idx → EReal)
    (Wr : S128x64.Idx → EReal) (B : S1x64.Idx → EReal) : S100000x64.Idx → EReal :=
  fun i => layer2 (SP (ix2 (i 0 : Fin 100000) (i 1 : Fin 64))) (I (ix2 (i 0 : Fin 100000) (0 : Fin 1)))
    (fun k => H (ix2 (i 0 : Fin 100000) k)) (fun k q => Wr (ix2 k q)) (B (ix2 (0 : Fin 1) (i 1 : Fin 64))) (i 1 : Fin 64)

theorem hz : (![0, 0] : Fin 2 → Nat) = fun _ => 0 := funext fun a => by fin_cases a <;> rfl

theorem hN : cfg1.N = 25 := N_1

/-- The printed index maps over the grid: the row-blocked windows sit at block row `t`, block column 0; the
    resident ones at block (0, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

variable (V : (c : Dev nD) → (b : Ref sig .tc) → Buf (Elt Ideal) ((c : Thread nD τ).loc b))

/-- The global row of block row `p` at point `t`. -/
abbrev row (t : Fin cfg1.N) (p : Fin 4000) : Fin 100000 :=
  ⟨t.val * 4000 + p.val, by have h25 : t.val < 25 := Nat.lt_of_lt_of_eq t.isLt hN; have := p.isLt; omega⟩

/-! ## The blocks the body loads, read off the arrays -/

theorem read0 (c : Dev nD) (t : Fin cfg1.N) (p : Fin 4000) (q : Fin 64) :
    iblk1 V c 0 t (ix2 p q) = V c main_v38 (ix2 (row t p) q) := by
  obtain ⟨⟨e0, e1⟩, -⟩ := index_facts t
  show V c main_v38 (((cfg1.win 0).blk t).view.emb (ix2 p q)) = _
  refine congrArg (V c main_v38) (funext fun a => Fin.ext ?_)
  match a with
  | ⟨0, _⟩ => show win1_0.index t (0 : Fin 2) * 4000 + 1 * p.val = t.val * 4000 + p.val; omega
  | ⟨1, _⟩ => show win1_0.index t (1 : Fin 2) * 64 + 1 * q.val = q.val; omega

theorem read1 (c : Dev nD) (t : Fin cfg1.N) (p : Fin 4000) :
    iblk1 V c 1 t (ix2 p (0 : Fin 1)) = V c main_v12 (ix2 (row t p) (0 : Fin 1)) := by
  obtain ⟨-, ⟨e0, e1⟩, -⟩ := index_facts t
  show V c main_v12 (((cfg1.win 1).blk t).view.emb (ix2 p (0 : Fin 1))) = _
  refine congrArg (V c main_v12) (funext fun a => Fin.ext ?_)
  match a with
  | ⟨0, _⟩ => show win1_1.index t (0 : Fin 2) * 4000 + 1 * p.val = t.val * 4000 + p.val; omega
  | ⟨1, _⟩ => show win1_1.index t (1 : Fin 2) * 1 + 1 * 0 = 0; omega

theorem read2 (c : Dev nD) (t : Fin cfg1.N) (p : Fin 4000) (k : Fin 128) :
    iblk1 V c 2 t (ix2 p k) = V c main_v26_0 (ix2 (row t p) k) := by
  obtain ⟨-, -, ⟨e0, e1⟩, -⟩ := index_facts t
  show V c main_v26_0 (((cfg1.win 2).blk t).view.emb (ix2 p k)) = _
  refine congrArg (V c main_v26_0) (funext fun a => Fin.ext ?_)
  match a with
  | ⟨0, _⟩ => show win1_2.index t (0 : Fin 2) * 4000 + 1 * p.val = t.val * 4000 + p.val; omega
  | ⟨1, _⟩ => show win1_2.index t (1 : Fin 2) * 128 + 1 * k.val = k.val; omega

theorem read3 (c : Dev nD) (t : Fin cfg1.N) (k : Fin 128) (q : Fin 64) :
    iblk1 V c 3 t (ix2 k q) = V c main_arg7 (ix2 k q) := by
  obtain ⟨-, -, -, ⟨e0, e1⟩, -⟩ := index_facts t
  show V c main_arg7 (((cfg1.win 3).blk t).view.emb (ix2 k q)) = _
  refine congrArg (V c main_arg7) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

theorem read4 (c : Dev nD) (t : Fin cfg1.N) (q : Fin 64) :
    iblk1 V c 4 t (ix2 (0 : Fin 1) q) = V c main_v39 (ix2 (0 : Fin 1) q) := by
  obtain ⟨-, -, -, -, ⟨e0, e1⟩, -⟩ := index_facts t
  show V c main_v39 (((cfg1.win 4).blk t).view.emb (ix2 (0 : Fin 1) q)) = _
  refine congrArg (V c main_v39) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- Where block entry `(p, q)` of the output lies in its array. -/
theorem emb5 (t : Fin cfg1.N) (p : Fin 4000) (q : Fin 64) :
    ((cfg1.win 5).blk t).view.emb (ix2 p q) = ix2 (row t p) q := by
  obtain ⟨-, -, -, -, -, ⟨e0, e1⟩⟩ := index_facts t
  refine funext fun a => Fin.ext ?_
  match a with
  | ⟨0, _⟩ => show win1_5.index t (0 : Fin 2) * 4000 + 1 * p.val = t.val * 4000 + p.val; omega
  | ⟨1, _⟩ => show win1_5.index t (1 : Fin 2) * 64 + 1 * q.val = q.val; omega

/-! ## What a point writes back -/

theorem flushed5 (c : Dev nD) (t : Fin cfg1.N) :
    (dat1 V c).flushed 5 t = ((cfg1.win 5).blk t).view.read (Elt Ideal)
      (output (V c main_v38) (V c main_v12) (V c main_v26_0) (V c main_arg7) (V c main_v39)) := by
  show (cfg1.win 5).cut (grid1.coords t) ((dat1 V c).after 5 t) = _
  rw [after1_5]
  unfold out1_5
  rw [View.canon_unit_zero hz]
  simp only [View.ld_unit_zero (S := S4000x64) hz, View.ld_unit_zero (S := S4000x1) hz, View.ld_unit_zero (S := S4000x128) hz,
    View.ld_unit_zero (S := S128x64) hz, View.ld_unit_zero (S := S1x64) hz]
  funext j
  obtain ⟨p, q, rfl⟩ : ∃ (p : Fin 4000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = output (V c main_v38) (V c main_v12) (V c main_v26_0) (V c main_arg7) (V c main_v39)
        (((cfg1.win 5).blk t).view.emb (ix2 p q))
  rw [emb5]
  refine (output_apply (iblk1 V c 0 t) (iblk1 V c 1 t) (iblk1 V c 2 t) (iblk1 V c 3 t) (iblk1 V c 4 t) p q).trans ?_
  show layer2 _ _ _ _ _ q = layer2 _ _ _ _ _ q
  rw [read0 V c t p q, read1 V c t p,
    show (fun k => iblk1 V c 2 t (ix2 p k)) = (fun k => V c main_v26_0 (ix2 (row t p) k)) from funext fun k => read2 V c t p k,
    show (fun k q => iblk1 V c 3 t (ix2 k q)) = (fun k q => V c main_arg7 (ix2 k q)) from funext fun k => funext fun q => read3 V c t k q,
    read4 V c t q]

/-! ## The blocks tile the rows -/

theorem mem_blk5 (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v40).slice (win1_5.rect t)).set ↔ _
  rw [View.set_slice_whole, Rect.mem_set_unit]
  exact Iff.rfl

/-- Row `r` lies in the block of point `r / 4000`. -/
theorem cover5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 4000 < cfg1.N := by rw [hN]; omega
  refine ⟨⟨(i 0).val / 4000, ht⟩, flush1_5 _, ?_⟩
  rw [mem_blk5]
  obtain ⟨-, -, -, -, -, ⟨e0, e1⟩⟩ := index_facts ⟨(i 0).val / 4000, ht⟩
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, ht⟩ (1 : Fin 2) * 64 ≤ (i 1).val
      ∧ (i 1).val < win1_5.index ⟨(i 0).val / 4000, ht⟩ (1 : Fin 2) * 64 + 64
    rw [e1]; omega

/-- After the region the output array holds the second layer of the arrays the region was entered with. -/
theorem final5 (c : Dev nD) : (dat1 V c).arrAt 5 cfg1.N
    = output (V c main_v38) (V c main_v12) (V c main_v26_0) (V c main_arg7) (V c main_v39) :=
  (dat1 V c).arrAt_eq_of_cover 5 _ (fun t _ => flushed5 V c t) cover5

end Cert.KernelIdeal.Region1

end
-- ==== Proof.HostGlue.lean ====
/-
  THE ARRAYS THE TWO REGIONS ARE ENTERED WITH, AS FUNCTIONS OF THE ARGUMENTS.

  Before the first region the host computes, from the edge list, the in-degree of every node clamped below by one, its
  reciprocal as a column, and the sum over each node's incoming edges of the source rows of `x` (gathered through a
  narrower float format and back: the identity on the extended reals). These are the same operations, on the same
  operands, as the reference's: the aggregate IS the reference's first aggregate, the clamped degree IS the
  reference's. The weight matrices pass through untouched and the bias vector is laid out as one row.

  Between the regions the host aggregates the rows of the first region's second result the same way (64 wide); the
  hidden array, the reciprocal column, the right matrix pass through untouched and the second bias is laid out as a row.
-/
import proofs.«131433_j38817914421629_2_alg».proof.Proof.Gen.KernelIdeal.Frame
import proofs.«131433_j38817914421629_2_alg».proof.Proof.Gen.ReferenceIdeal.Read
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Entering the first region -/

set_option maxHeartbeats 1000000 in
/-- The aggregate of the source rows of `x` is the reference's. -/
theorem aggregate_x (c : Dev nD) :
    (V1 m ρ c main_v24 : S100000x128.Idx → EReal)
      = Cert.ReferenceIdeal.Read.val_main_v13 (F := Ideal) (m ((c : Thread nD τ).loc main_arg0)) (m ((c : Thread nD τ).loc main_arg1)) := by
  dsimp only [V1, W1]
  after_results_simp
  rfl

set_option maxHeartbeats 1000000 in
/-- The reciprocal column: one over the reference's clamped degree, laid out as a column. -/
theorem recip_column (c : Dev nD) :
    (V1 m ρ c main_v12 : S100000x1.Idx → EReal)
      = shapeCast S100000x1 (Host.divf (F := Ideal) (φ := .f32) (Cert.ReferenceIdeal.Read.val_main_v18 (F := Ideal))
          (Cert.ReferenceIdeal.Read.val_main_v19 (F := Ideal) (m ((c : Thread nD τ).loc main_arg1))) : S100000.Idx → EReal)
          shapeCasts_S100000_S100000x1 := by
  dsimp only [V1, W1]
  after_results_simp
  rfl

set_option maxHeartbeats 1000000 in
theorem entry_x (c : Dev nD) : V1 m ρ c main_arg0 = m ((c : Thread nD τ).loc main_arg0) := by
  dsimp only [V1, W1]
  after_results_simp

set_option maxHeartbeats 1000000 in
theorem entry_W1l (c : Dev nD) : V1 m ρ c main_arg2 = m ((c : Thread nD τ).loc main_arg2) := by
  dsimp only [V1, W1]
  after_results_simp

set_option maxHeartbeats 1000000 in
theorem entry_W1r (c : Dev nD) : V1 m ρ c main_arg4 = m ((c : Thread nD τ).loc main_arg4) := by
  dsimp only [V1, W1]
  after_results_simp

set_option maxHeartbeats 1000000 in
theorem entry_W2l (c : Dev nD) : V1 m ρ c main_arg5 = m ((c : Thread nD τ).loc main_arg5) := by
  dsimp only [V1, W1]
  after_results_simp

set_option maxHeartbeats 1000000 in
/-- The first bias as one row. -/
theorem bias1_row (c : Dev nD) :
    (V1 m ρ c main_v25 : S1x128.Idx → EReal)
      = shapeCast S1x128 (m ((c : Thread nD τ).loc main_arg3) : S128.Idx → EReal) shapeCasts_S128_S1x128 := by
  dsimp only [V1, W1]
  after_results_simp
  rfl

/-! ## What the first stretch leaves in the buffers the second stretch reads -/

set_option maxHeartbeats 1000000 in
theorem w1_src (c : Dev nD) :
    (W1 m ρ c (Proc.devRef .tc main_v1) : S1600000.Idx → BitVec 32)
      = Cert.ReferenceIdeal.Read.val_main_v1 (F := Ideal) (m ((c : Thread nD τ).loc main_arg1)) := by
  dsimp only [W1]
  after_results_simp
  rfl

set_option maxHeartbeats 1000000 in
theorem w1_dst (c : Dev nD) :
    (W1 m ρ c (Proc.devRef .tc main_v3) : S1600000.Idx → BitVec 32)
      = Cert.ReferenceIdeal.Read.val_main_v3 (F := Ideal) (m ((c : Thread nD τ).loc main_arg1)) := by
  dsimp only [W1]
  after_results_simp
  rfl

set_option maxHeartbeats 1000000 in
theorem w1_W2r (c : Dev nD) : W1 m ρ c (Proc.devRef .tc main_arg7) = m ((c : Thread nD τ).loc main_arg7) := by
  dsimp only [W1]
  after_results_simp

set_option maxHeartbeats 1000000 in
theorem w1_b2 (c : Dev nD) : W1 m ρ c (Proc.devRef .tc main_arg6) = m ((c : Thread nD τ).loc main_arg6) := by
  dsimp only [W1]
  after_results_simp

/-- The first region writes only its two output arrays: the edge lists, the reciprocal column and the remaining
    arguments come out of it as they went in. -/
theorem w2_src (c : Dev nD) : W2 m ρ c (Proc.devRef .tc main_v1) = W1 m ρ c (Proc.devRef .tc main_v1) :=
  W2_of_ne m ρ c main_v1 (by decide)
theorem w2_dst (c : Dev nD) : W2 m ρ c (Proc.devRef .tc main_v3) = W1 m ρ c (Proc.devRef .tc main_v3) :=
  W2_of_ne m ρ c main_v3 (by decide)
theorem w2_W2r (c : Dev nD) : W2 m ρ c (Proc.devRef .tc main_arg7) = W1 m ρ c (Proc.devRef .tc main_arg7) :=
  W2_of_ne m ρ c main_arg7 (by decide)
theorem w2_b2 (c : Dev nD) : W2 m ρ c (Proc.devRef .tc main_arg6) = W1 m ρ c (Proc.devRef .tc main_arg6) :=
  W2_of_ne m ρ c main_arg6 (by decide)

/-! ## Entering the second region -/

/-- The aggregate of the source rows of a 64-wide array `P`, with the reference's source and destination columns. -/
def aggregate64 (x1 : S2x1600000.Idx → BitVec 32) (P : S100000x64.Idx → EReal) : S100000x64.Idx → EReal :=
  Host.scatterAdd (F := Ideal) scatter_S100000x64_S1600000x1_S1600000x64_1_0_0_1
    (broadcastInDim S100000x64 ![] bcast_S_S100000x64 (constant (F := Ideal) S_ .f32 0x00000000#32))
    (Cert.ReferenceIdeal.Read.val_main_v38 (F := Ideal) x1)
    (Host.gather gather_S100000x64_S1600000x1_S1600000x64_1_0_n_n_0_1_164 P (Cert.ReferenceIdeal.Read.val_main_v35 (F := Ideal) x1))

set_option maxHeartbeats 1000000 in
/-- The second region's aggregate operand: the aggregate of the first region's second result. -/
theorem aggregate_p (c : Dev nD) :
    (V3 m ρ c main_v38 : S100000x64.Idx → EReal)
      = aggregate64 (m ((c : Thread nD τ).loc main_arg1)) (W2 m ρ c (Proc.devRef .tc main_v26_1)) := by
  dsimp only [V3, W3]
  after_results_simp
  rw [w2_src, w2_dst, w1_src, w1_dst]
  rfl

set_option maxHeartbeats 1000000 in
theorem entry2_recip (c : Dev nD) : V3 m ρ c main_v12 = V1 m ρ c main_v12 := by
  dsimp only [V3, W3]
  after_results_simp
  exact (W2_arr m ρ c 1).trans (((dat0 (V1 m ρ) c).arrAt_in 1 rfl _).trans (A_eq0 (V1 m ρ) c 1))

set_option maxHeartbeats 1000000 in
theorem entry2_hidden (c : Dev nD) : V3 m ρ c main_v26_0 = W2 m ρ c (Proc.devRef .tc main_v26_0) := by
  dsimp only [V3, W3]
  after_results_simp

set_option maxHeartbeats 1000000 in
theorem entry2_W2r (c : Dev nD) : V3 m ρ c main_arg7 = m ((c : Thread nD τ).loc main_arg7) := by
  dsimp only [V3, W3]
  after_results_simp
  rw [w2_W2r, w1_W2r]

set_option maxHeartbeats 1000000 in
/-- The second bias as one row. -/
theorem bias2_row (c : Dev nD) :
    (V3 m ρ c main_v39 : S1x64.Idx → EReal)
      = shapeCast S1x64 (m ((c : Thread nD τ).loc main_arg6) : S64.Idx → EReal) shapeCasts_S64_S1x64 := by
  dsimp only [V3, W3]
  after_results_simp
  rw [w2_b2, w1_b2]
  rfl

end Cert.KernelIdeal.Glue

end
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.RefRead.lean ====
/-
  THE REFERENCE, READ AT AN ENTRY.

  With `A₁` the reference's first aggregate (the sum of the source rows of `x` over a node's incoming edges), `c r` node
  `r`'s in-degree clamped below by one, `H` its hidden array and `A₂` the aggregate of the source rows of `H`:
  * `H (r, q) = max(((∑ k, (A₁ (r, k) / c r) · W1l (k, q)) + b1 q) + ∑ k, x (r, k) · W1r (k, q), 0)`  (`hidden_apply`:
    `Sage.layer1Ref` of row `r`);
  * `out (r, q) = ((∑ k, (A₂ (r, k) / c r) · W2l (k, q)) + b2 q) + ∑ k, H (r, k) · W2r (k, q)`  (`result_apply`:
    `Sage.layer2Ref` of row `r`).
  The clamped degree is a real number ≥ 1, so it is not zero (`degree_real`): the in-degree is a finite sum of ones and
  zeros. When the arguments are real-valued so is the hidden array (`hidden_real`): every operation on the way is a
  finite sum, a product, a maximum, or a quotient by the non-zero real `c r`.
-/
import proofs.«131433_j38817914421629_2_alg».proof.Proof.Gen.ReferenceIdeal.Read
import proofs.«131433_j38817914421629_2_alg».proof.Proof.Spec
import proofs.«131433_j38817914421629_2_alg».proof.Proof.LibReal
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Cert.ReferenceIdeal.Read Cert.LibReal Cert.Sage
open Idealize.ShloMosaic Idealize.ShloMosaic.ValueIdx

/-- The word of `1.0` denotes the real one. -/
theorem ofBits_one : Ideal.ofBits .f32 0x3F800000#32 = 1 := by
  simp [Ideal.ofBits, Ideal.ieee, -EReal.coe_mul]; norm_num

variable (x0 : FVec Ideal S100000x128 .f32) (x1 : IVec S2x1600000 32) (x2 : FVec Ideal S128x128 .f32)
  (x3 : FVec Ideal S128 .f32) (x4 : FVec Ideal S128x128 .f32) (x5 : FVec Ideal S128x64 .f32) (x6 : FVec Ideal S64 .f32)
  (x7 : FVec Ideal S128x64 .f32)

/-! ## The clamped degree -/

/-- The clamped degree broadcast along the features reads, at `(r, k)`, node `r`'s clamped degree. -/
theorem degree_bcast (r : Fin 100000) (k : Fin 128) :
    val_main_v21 (F := Ideal) x1 (ix2 r k) = val_main_v19 (F := Ideal) x1 (ix1 r) := by
  rw [val_main_v21_apply, val_main_v20_apply]
  exact congrArg (val_main_v19 (F := Ideal) x1) (funext fun a => by match a with | ⟨0, _⟩ => rfl)

/-- The second layer recomputes the same clamped degree. -/
theorem degree_bcast' (r : Fin 100000) (k : Fin 128) :
    val_main_v47 (F := Ideal) x1 (ix2 r k) = val_main_v19 (F := Ideal) x1 (ix1 r) := by
  rw [val_main_v47_apply, val_main_v46_apply]
  exact congrArg (val_main_v19 (F := Ideal) x1) (funext fun a => by match a with | ⟨0, _⟩ => rfl)

/-- The in-degree is real: a finite sum of ones and zeros from zero. -/
theorem count_real : RealVec (φ := .f32) (val_main_v17 (F := Ideal) x1) := by
  unfold val_main_v17
  refine RealVec.scatterAdd _ ?_ _ ?_
  · unfold val_main_v15 val_main_cst_2
    exact RealVec.broadcastInDim (realVec_constant _ (by rw [Ideal.ofBits_zero_f32]; exact isReal_zero)) _ _
  · unfold val_main_v14 val_main_cst_1
    exact RealVec.broadcastInDim (realVec_constant _ (by rw [ofBits_one]; exact isReal_one)) _ _

/-- The clamped degree of node `r` is a non-zero real. -/
theorem degree_real (r : Fin 100000) : ∃ cr : ℝ, cr ≠ 0 ∧ val_main_v19 (F := Ideal) x1 (ix1 r) = (cr : EReal) := by
  obtain ⟨a, ha⟩ := count_real x1 (ix1 r)
  obtain ⟨cr, hcr⟩ := (isReal_coe a).max isReal_one
  have h1 : (1 : EReal) ≤ (cr : EReal) := hcr ▸ le_max_right _ _
  have h1' : (1 : ℝ) ≤ cr := by exact_mod_cast h1
  refine ⟨cr, ne_of_gt (lt_of_lt_of_le one_pos h1'), ?_⟩
  rw [val_main_v19_apply, ha, val_main_v18_apply, val_main_cst_3_apply, Ideal.maximumf_def, Ideal.ofBits_def, ofBits_one]
  exact hcr

/-! ## The hidden array and the result at an entry -/

/-- The first bias broadcast down the rows reads, at `(r, q)`, the bias at `q`. -/
theorem bias1_bcast (r : Fin 100000) (q : Fin 128) : val_main_v25 (F := Ideal) x3 (ix2 r q) = x3 (ix1 q) := by
  rw [val_main_v25_apply, val_main_v24_apply]
  exact congrArg x3 (funext fun a => by match a with | ⟨0, _⟩ => rfl)

/-- The second bias broadcast down the rows reads, at `(r, q)`, the bias at `q`. -/
theorem bias2_bcast (r : Fin 100000) (q : Fin 64) : val_main_v51 (F := Ideal) x6 (ix2 r q) = x6 (ix1 q) := by
  rw [val_main_v51_apply, val_main_v50_apply]
  exact congrArg x6 (funext fun a => by match a with | ⟨0, _⟩ => rfl)

/-! The four matrix products contract the left operand's columns against the right operand's rows: at result entry
    `(r, q)` and contraction index `k` they read the left operand at `(r, k)` and the right one at `(k, q)`. -/

theorem lidx23 (r : Fin 100000) (q k : Fin 128) : lidx_main_v23 (ix2 r q) k = ix2 r k :=
  funext fun a => by match a with | ⟨0, _⟩ => rfl | ⟨1, _⟩ => rfl
theorem ridx23 (r : Fin 100000) (q k : Fin 128) : ridx_main_v23 (ix2 r q) k = ix2 k q :=
  funext fun a => by match a with | ⟨0, _⟩ => rfl | ⟨1, _⟩ => rfl
theorem lidx27 (r : Fin 100000) (q k : Fin 128) : lidx_main_v27 (ix2 r q) k = ix2 r k :=
  funext fun a => by match a with | ⟨0, _⟩ => rfl | ⟨1, _⟩ => rfl
theorem ridx27 (r : Fin 100000) (q k : Fin 128) : ridx_main_v27 (ix2 r q) k = ix2 k q :=
  funext fun a => by match a with | ⟨0, _⟩ => rfl | ⟨1, _⟩ => rfl
theorem lidx49 (r : Fin 100000) (q : Fin 64) (k : Fin 128) : lidx_main_v49 (ix2 r q) k = ix2 r k :=
  funext fun a => by match a with | ⟨0, _⟩ => rfl | ⟨1, _⟩ => rfl
theorem ridx49 (r : Fin 100000) (q : Fin 64) (k : Fin 128) : ridx_main_v49 (ix2 r q) k = ix2 k q :=
  funext fun a => by match a with | ⟨0, _⟩ => rfl | ⟨1, _⟩ => rfl
theorem lidx53 (r : Fin 100000) (q : Fin 64) (k : Fin 128) : lidx_main_v53 (ix2 r q) k = ix2 r k :=
  funext fun a => by match a with | ⟨0, _⟩ => rfl | ⟨1, _⟩ => rfl
theorem ridx53 (r : Fin 100000) (q : Fin 64) (k : Fin 128) : ridx_main_v53 (ix2 r q) k = ix2 k q :=
  funext fun a => by match a with | ⟨0, _⟩ => rfl | ⟨1, _⟩ => rfl

/-- The hidden array at `(r, q)`: the first layer's row of node `r` in the reference's spelling. -/
theorem hidden_apply (r : Fin 100000) (q : Fin 128) :
    val_main_v29 (F := Ideal) x0 x1 x2 x3 x4 (ix2 r q)
      = layer1Ref (fun k => val_main_v13 (F := Ideal) x0 x1 (ix2 r k)) (val_main_v19 (F := Ideal) x1 (ix1 r))
          (fun k => x0 (ix2 r k)) (fun k q => x2 (ix2 k q)) (fun q => x3 (ix1 q)) (fun k q => x4 (ix2 k q)) q := by
  rw [val_main_v29_apply, val_main_v28_apply, val_main_v26_apply, val_main_v23_apply, val_main_v27_apply,
    val_main_call0_v0_apply, val_main_call0_cst_apply, bias1_bcast,
    Ideal.maximumf_def, Ideal.addf_def, Ideal.addf_def, Ideal.ofBits_def]
  unfold layer1Ref
  refine congrArg₂ max (congrArg₂ (· + ·) (congrArg₂ (· + ·) (Finset.sum_congr rfl fun k _ => ?_) rfl)
    (Finset.sum_congr rfl fun k _ => ?_)) rfl
  · rw [lidx23, ridx23, val_main_v22_apply, degree_bcast]
    rfl
  · rw [lidx27, ridx27]

/-- The result at `(r, q)`: the second layer's row of node `r` in the reference's spelling. -/
theorem result_apply (r : Fin 100000) (q : Fin 64) :
    val_main_v54 (F := Ideal) x0 x1 x2 x3 x4 x5 x6 x7 (ix2 r q)
      = layer2Ref (fun k => val_main_v39 (F := Ideal) x0 x1 x2 x3 x4 (ix2 r k)) (val_main_v19 (F := Ideal) x1 (ix1 r))
          (fun k => val_main_v29 (F := Ideal) x0 x1 x2 x3 x4 (ix2 r k)) (fun k q => x5 (ix2 k q)) (fun k q => x7 (ix2 k q))
          (x6 (ix1 q)) q := by
  rw [val_main_v54_apply, val_main_v52_apply, val_main_v49_apply, val_main_v53_apply, bias2_bcast,
    Ideal.addf_def, Ideal.addf_def]
  unfold layer2Ref
  refine congrArg₂ (· + ·) (congrArg₂ (· + ·) (Finset.sum_congr rfl fun k _ => ?_) rfl)
    (Finset.sum_congr rfl fun k _ => ?_)
  · rw [lidx49, ridx49, val_main_v48_apply, degree_bcast']
    rfl
  · rw [lidx53, ridx53]

/-! ## Real arguments give a real hidden array -/

/-- A quotient of a real array by an array of non-zero reals is real. -/
theorem realVec_divf {s : Shape} {x y : FVec Ideal s .f32} (hx : RealVec x)
    (hy : ∀ i, ∃ c : ℝ, c ≠ 0 ∧ y i = (c : EReal)) : RealVec (Host.divf x y) := fun i => by
  obtain ⟨c, hc, e⟩ := hy i
  show IsReal (Ideal.div (x i) (y i))
  rw [e]; exact (hx i).div_coe hc

theorem hidden_real (h0 : RealVec x0) (h2 : RealVec x2) (h3 : RealVec x3) (h4 : RealVec x4) :
    RealVec (φ := .f32) (val_main_v29 (F := Ideal) x0 x1 x2 x3 x4) := by
  unfold val_main_v29 val_main_v28 val_main_v26 val_main_v23 val_main_v27 val_main_v22
  refine RealVec.maximumf (RealVec.addf (RealVec.addf (RealVec.dotGeneral _ none (realVec_divf ?_ ?_) h2) ?_)
    (RealVec.dotGeneral _ none h0 h4)) ?_
  · unfold val_main_v13
    refine RealVec.scatterAdd _ ?_ _ (RealVec.gather h0 _ _)
    unfold val_main_v11 val_main_cst
    exact RealVec.broadcastInDim (realVec_constant _ (by rw [Ideal.ofBits_zero_f32]; exact isReal_zero)) _ _
  · intro i
    obtain ⟨r, k, rfl⟩ : ∃ (r : Fin 100000) (k : Fin 128), i = ix2 r k := ⟨i 0, i 1, eq_ix2 i⟩
    rw [degree_bcast]
    exact degree_real x1 r
  · unfold val_main_v25 val_main_v24
    exact RealVec.broadcastInDim (RealVec.broadcastInDim h3 _ _) _ _
  · unfold val_main_call0_v0 val_main_call0_cst
    exact RealVec.broadcastInDim (realVec_constant _ (by rw [Ideal.ofBits_zero_f32]; exact isReal_zero)) _ _

end Cert.ReferenceIdeal.RefRead

end
-- ==== Proof.LibScatterRows.lean ====
/-
  THE ACCUMULATING SCATTER OF ROWS, READ AT AN ENTRY.

  For an operand `x : [N, C]`, scatter indices `idx : [M, 1]` (one scalar row index per update row) and updates
  `upd : [M, C]`, the accumulating scatter (`x.at[idx].add(upd)`, whole rows added at the indexed rows) at the ideal
  instance is, at entry `(i, c)`, `x i c` plus the sum of the update entries `upd j c` over the update rows `j` whose
  index `idx[j, 0]`, read as a signed integer, is `i` (`scatterAdd_rows_apply`); an update row whose index is outside
  `[0, N)` contributes nothing.

  Axis 0 of the operand is the inserted, index-addressed axis: the window of update entry `(j, c')` starts there at
  `idx[j, 0]` and has window coordinate `0`. Axis 1 is the update window axis: the window starts there at `0` and the
  window coordinate is `c'`. So update entry `(j, c')` lands on `(i, c)` exactly when `idx[j, 0] = i` and `c' = c`; the
  sum over the rank-2 update index set is the double sum over `(j, c')`, and the inner sum over `c'` is its one term
  `c' = c`.
-/
import Idealize.ShloMosaic.Lib.ValueIdx

noncomputable section

open scoped BigOperators

namespace Cert.Lib.ScatterRows

open Idealize.ShloMosaic Idealize.ShloMosaic.ValueIdx

/-- The dimension numbers of `x.at[idx].add(upd)` for an operand `[N, C]`, scatter indices `[M, 1]` and updates
    `[M, C]`: the updates' axis 1 is the one update window axis, the operand's axis 0 is inserted, and each index
    vector is one scalar addressing it. -/
abbrev rowDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- On the operand's axis 0 the window of update entry `(j, c')` starts at the scatter index `idx[j, 0]` read signed. -/
theorem start_zero (idx : IVec ⟨2, ![M, 1]⟩ w) (j : Fin M) (c' : Fin C) :
    (rowDims N C M wf).start (ix2 j c') idx 0 = (idx (ix2 j (0 : Fin 1))).toInt := by
  unfold ScatterDims.start
  rw [dif_pos (show (0 : Fin 2) ∈ (rowDims N C M wf).scatterDimsToOperandDims from List.mem_singleton.mpr rfl)]
  have hsi : (rowDims N C M wf).siIdx (ix2 j c') ⟨List.idxOf (0 : Fin 2) (rowDims N C M wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the operand's axis 1, which no index component addresses, the window starts at `0`. -/
theorem start_one (idx : IVec ⟨2, ![M, 1]⟩ w) (j : Fin M) (c' : Fin C) :
    (rowDims N C M wf).start (ix2 j c') idx 1 = 0 := by
  unfold ScatterDims.start
  rw [dif_neg]
  simp

/-- The operand's axis 0 is an inserted window axis: the window coordinate on it is `0`. -/
theorem window_zero (j : Fin M) (c' : Fin C) : (rowDims N C M wf).window (ix2 j c') 0 = 0 := by
  unfold ScatterDims.window
  rw [dif_neg]
  simp [ScatterDims.sKept, Shape.kept]

/-- The operand's axis 1 carries the update window axis: the window coordinate on it is the update's column `c'`. -/
theorem window_one (j : Fin M) (c' : Fin C) : (rowDims N C M wf).window (ix2 j c') 1 = c'.val := by
  unfold ScatterDims.window
  rw [dif_pos (show (1 : Fin 2) ∈ (rowDims N C M wf).sKept by simp [ScatterDims.sKept, Shape.kept])]
  rfl

/-- Start plus window coordinate of update entry `(j, c')` on axis 0: its scatter index read signed. -/
theorem start_add_window_zero (idx : IVec ⟨2, ![M, 1]⟩ w) (j : Fin M) (c' : Fin C) :
    (rowDims N C M wf).start (ix2 j c') idx 0 + ((rowDims N C M wf).window (ix2 j c') 0 : ℤ)
      = (idx (ix2 j (0 : Fin 1))).toInt := by
  rw [start_zero, window_zero]; simp

/-- Start plus window coordinate of update entry `(j, c')` on axis 1: its column `c'`. -/
theorem start_add_window_one (idx : IVec ⟨2, ![M, 1]⟩ w) (j : Fin M) (c' : Fin C) :
    (rowDims N C M wf).start (ix2 j c') idx 1 + ((rowDims N C M wf).window (ix2 j c') 1 : ℤ) = (c'.val : ℤ) := by
  rw [start_one, window_one]; simp

/-- Update entry `(j, c')` lands on entry `(i, c)` exactly when its scatter index, read signed, is `i` and `c' = c`. -/
theorem resultIdx?_eq_some_iff (idx : IVec ⟨2, ![M, 1]⟩ w) (j : Fin M) (c' : Fin C) (i : Fin N) (c : Fin C) :
    (rowDims N C M wf).resultIdx? (ix2 j c') idx = some (ix2 i c)
      ↔ (idx (ix2 j (0 : Fin 1))).toInt = (i.val : ℤ) ∧ c' = c := by
  unfold ScatterDims.resultIdx?
  constructor
  · intro h
    split at h
    · rename_i hall
      have h0 := congrArg Fin.val (congrFun (Option.some.inj h) (0 : Fin 2))
      have h1 := congrArg Fin.val (congrFun (Option.some.inj h) (1 : Fin 2))
      have hb := hall (0 : Fin 2)
      rw [start_add_window_zero] at hb
      change ((rowDims N C M wf).start (ix2 j c') idx 0 + ((rowDims N C M wf).window (ix2 j c') 0 : ℤ)).toNat
        = i.val at h0
      change ((rowDims N C M wf).start (ix2 j c') idx 1 + ((rowDims N C M wf).window (ix2 j c') 1 : ℤ)).toNat
        = c.val at h1
      rw [start_add_window_zero] at h0
      rw [start_add_window_one] at h1
      refine ⟨by omega, Fin.ext (by omega)⟩
    · exact absurd h (by simp)
  · rintro ⟨hz, rfl⟩
    have hall : ∀ a : Fin 2, 0 ≤ (rowDims N C M wf).start (ix2 j c') idx a + ((rowDims N C M wf).window (ix2 j c') a : ℤ)
        ∧ (rowDims N C M wf).start (ix2 j c') idx a + ((rowDims N C M wf).window (ix2 j c') a : ℤ)
            < ((⟨2, ![N, C]⟩ : Shape).size a : ℤ) := by
      intro a
      match a with
      | ⟨0, _⟩ =>
        have e := start_add_window_zero wf idx j c'
        have hi : (i.val : ℤ) < (N : ℤ) := by exact_mod_cast i.isLt
        refine ⟨?_, ?_⟩
        · change 0 ≤ (rowDims N C M wf).start (ix2 j c') idx 0 + ((rowDims N C M wf).window (ix2 j c') 0 : ℤ)
          rw [e, hz]; omega
        · change (rowDims N C M wf).start (ix2 j c') idx 0 + ((rowDims N C M wf).window (ix2 j c') 0 : ℤ) < (N : ℤ)
          rw [e, hz]; exact hi
      | ⟨1, _⟩ =>
        have e := start_add_window_one wf idx j c'
        have hc : (c'.val : ℤ) < (C : ℤ) := by exact_mod_cast c'.isLt
        refine ⟨?_, ?_⟩
        · change 0 ≤ (rowDims N C M wf).start (ix2 j c') idx 1 + ((rowDims N C M wf).window (ix2 j c') 1 : ℤ)
          rw [e]; omega
        · change (rowDims N C M wf).start (ix2 j c') idx 1 + ((rowDims N C M wf).window (ix2 j c') 1 : ℤ) < (C : ℤ)
          rw [e]; exact hc
    rw [dif_pos hall]
    congr 1
    funext a
    refine Fin.ext ?_
    match a with
    | ⟨0, _⟩ =>
      change ((rowDims N C M wf).start (ix2 j c') idx 0 + ((rowDims N C M wf).window (ix2 j c') 0 : ℤ)).toNat = i.val
      rw [start_add_window_zero, hz]; omega
    | ⟨1, _⟩ =>
      change ((rowDims N C M wf).start (ix2 j c') idx 1 + ((rowDims N C M wf).window (ix2 j c') 1 : ℤ)).toNat = c'.val
      rw [start_add_window_one]; omega

/-- The scatter read at entry `(i, c)`: the operand's entry plus the column-`c` entries of the update rows whose
    scatter index is `i`. -/
theorem scatterAdd_rows_apply {φ : FTy} (x : FVec Ideal ⟨2, ![N, C]⟩ φ) (idx : IVec ⟨2, ![M, 1]⟩ w)
    (upd : FVec Ideal ⟨2, ![M, C]⟩ φ) (i : Fin N) (c : Fin C) :
    Host.scatterAdd (F := Ideal) (rowDims N C M wf) x idx upd (ix2 i c)
      = x (ix2 i c) + ∑ j : Fin M, if (idx (ix2 j (0 : Fin 1))).toInt = (i.val : ℤ) then upd (ix2 j c) else 0 := by
  show Ideal.hostScatterAdd (rowDims N C M wf) x idx upd (ix2 i c) = _
  unfold Ideal.hostScatterAdd
  congr 1
  rw [Finset.sum_filter, sum_idx2]
  refine Finset.sum_congr rfl fun j _ => ?_
  have hinner : ∀ c' : Fin C,
      (if (rowDims N C M wf).resultIdx? (ix2 j c') idx = some (ix2 i c) then upd (ix2 j c') else 0)
        = if c = c' then (if (idx (ix2 j (0 : Fin 1))).toInt = (i.val : ℤ) then upd (ix2 j c') else 0) else 0 := by
    intro c'
    by_cases hcc : c = c'
    · subst hcc
      rw [if_pos rfl]
      by_cases h : (idx (ix2 j (0 : Fin 1))).toInt = (i.val : ℤ)
      · rw [if_pos h, if_pos ((resultIdx?_eq_some_iff wf idx j c i c).2 ⟨h, rfl⟩)]
      · rw [if_neg h, if_neg (fun h' => h ((resultIdx?_eq_some_iff wf idx j c i c).1 h').1)]
    · rw [if_neg hcc, if_neg (fun h' => hcc ((resultIdx?_eq_some_iff wf idx j c' i c).1 h').2.symm)]
  rw [Finset.sum_congr rfl (fun c' _ => hinner c'), Finset.sum_ite_eq, if_pos (Finset.mem_univ c)]

end Cert.Lib.ScatterRows

end
-- ==== Proof.LibGatherCols.lean ====
/-
  `stablehlo.gather` READ AT AN INDEX, for start indices of shape `[M, 1]` with the index vector on axis 1 (what
  `x[idx]` lowers to for an integer vector `idx : [M]`), in two layouts of the operand.

  * Flat operand `x : [N]` (offset_dims `[]`, collapsed_slice_dims `[0]`, start_index_map `[0]`, slice_sizes `[1]`):
    result element `e` is `x` at the start index `idx[e, 0]`, read as a signed integer and clamped into `[0, N − 1]`
    (`gather_flat_apply`).
  * Table operand `x : [N, C]` (offset_dims `[1]`, collapsed_slice_dims `[0]`, start_index_map `[0]`, slice_sizes
    `[1, C]`): result element `(e, c)` is `x` at row `idx[e, 0]` (signed, clamped into `[0, N − 1]`) and column `c`
    (`gather_rows_apply`): axis 0 of the operand is collapsed and start-indexed, axis 1 is the offset axis, whose
    slice is the whole axis, so its start is 0 and its offset coordinate is the result's column.

  Both hold for variable extents `N`, `C`, `M` and any index width `w`.
-/
import Idealize.ShloMosaic.Lib.ValueIdx

noncomputable section

open scoped BigOperators

namespace Cert.Lib.GatherCols

open Idealize.ShloMosaic Idealize.ShloMosaic.ValueIdx

variable {α : Type}

/-! ## Flat operand `[N]`, start indices `[M, 1]`, result `[M]` -/

/-- The dimension numbers of a gather of single elements of a flat operand `[N]` at start indices `[M, 1]`
    (index vector on axis 1), result `[M]`; their conditions `wf` are decided on a program's literal shapes. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N M wf).start (ix1 e) idx 0 + (flatDims N M wf).batchCoord (ix1 e) 0
    + (flatDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 e) ⟨List.idxOf (0 : Fin 1) (flatDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Table operand `[N, C]`, start indices `[M, 1]`, result `[M, C]` -/

/-- The dimension numbers of a gather of whole rows of a table `[N, C]` at start indices `[M, 1]` (index vector on
    axis 1), result `[M, C]`: axis 0 collapsed and start-indexed, axis 1 the offset axis with slice size `C`. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather read at `(e, c)`: the table at row `idx[e, 0]`, read signed and clamped into `[0, N − 1]`, and
    column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c)
      = x (ix2 ⟨min (idx (ix2 e (0 : Fin 1))).toInt.toNat (N - 1), by omega⟩ c) := by
  unfold Host.gather
  congr 1
  funext a
  refine Fin.ext ?_
  show (rowDims N C M wf).start (ix2 e c) idx a + (rowDims N C M wf).batchCoord (ix2 e c) a
    + (rowDims N C M wf).offCoord (ix2 e c) a = _
  rw [GatherDims.batchCoord_eq_zero _ _ _ List.not_mem_nil, Nat.add_zero]
  match a with
  | ⟨0, _⟩ =>
    -- the collapsed, start-indexed axis: no offset coordinate, the start is the clamped index
    rw [GatherDims.offCoord_eq_zero _ _ _
      (fun h => ((GatherDims.mem_sKept _ _).mp h).1 (List.mem_singleton.mpr rfl)), Nat.add_zero]
    unfold GatherDims.start
    rw [dif_pos (show (⟨0, by omega⟩ : Fin 2) ∈ (rowDims N C M wf).startIndexMap from List.mem_singleton.mpr rfl)]
    have hsi : (rowDims N C M wf).siIdx (ix2 e c)
        ⟨List.idxOf (⟨0, by omega⟩ : Fin 2) (rowDims N C M wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the offset axis: not in the start index map, so the start is 0; the offset coordinate is the result's column
    have hk : (⟨1, by omega⟩ : Fin 2) ∈ (rowDims N C M wf).sKept :=
      (GatherDims.mem_sKept _ _).mpr
        ⟨fun h => Nat.one_ne_zero (congrArg Fin.val (List.mem_singleton.mp h)), List.not_mem_nil⟩
    have hs : (rowDims N C M wf).start (ix2 e c) idx ⟨1, by omega⟩ = 0 := by
      unfold GatherDims.start
      rw [dif_neg (fun h => Nat.one_ne_zero (congrArg Fin.val (List.mem_singleton.mp h)))]
    rw [hs, Nat.zero_add]
    unfold GatherDims.offCoord
    rw [dif_pos hk]
    rfl

end Cert.Lib.GatherCols

end
-- ==== Proof.LibNeighbourSum.lean ====
/-
  A ROW SCATTER-ADD OF A ROW GATHER, READ AT AN ENTRY: THE SUM OVER A NODE'S INCOMING EDGES.

  `jax.ops.segment_sum(T[src], dst)` on a table `T : [N, C]` with `E` edges gathers row `src e` of the table for
  every edge `e` and adds it into row `dst e` of the result. Read at entry `(r, k)`, it is the start value there plus
  the sum, over the edges whose destination (read as a signed integer) is `r`, of the table at the edge's source row
  (read signed and clamped into the table) and column `k` (`aggregate_apply`). An edge whose destination is outside
  `[0, N)` contributes nothing.
-/
import proofs.«131433_j38817914421629_2_alg».proof.Proof.LibScatterRows
import proofs.«131433_j38817914421629_2_alg».proof.Proof.LibGatherCols

noncomputable section

open scoped BigOperators

namespace Cert.LibNeighbourSum

open Idealize.ShloMosaic Idealize.ShloMosaic.ValueIdx

/-- The source row of edge `e`: its start index read signed and clamped into `[0, N − 1]`. -/
def srcRow {N E w : ℕ} (hN : 0 < N) (scol : IVec ⟨2, ![E, 1]⟩ w) (e : Fin E) : Fin N :=
  ⟨min (scol (ix2 e (0 : Fin 1))).toInt.toNat (N - 1), by omega⟩

/-- The aggregate at `(r, k)`: the start value plus the table's entries `(src e, k)` over the edges with `dst e = r`. -/
theorem aggregate_apply {N C E w : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (Z : FVec Ideal ⟨2, ![N, C]⟩ .f32) (dcol scol : IVec ⟨2, ![E, 1]⟩ w) (T : FVec Ideal ⟨2, ![N, C]⟩ .f32)
    (r : Fin N) (k : Fin C) :
    Host.scatterAdd (F := Ideal) (Cert.Lib.ScatterRows.rowDims N C E wfs) Z dcol
        (Host.gather (Cert.Lib.GatherCols.rowDims N C E wfg) T scol) (ix2 r k)
      = Z (ix2 r k) + ∑ e : Fin E, if (dcol (ix2 e (0 : Fin 1))).toInt = (r.val : ℤ)
          then T (ix2 (srcRow hN scol e) k) else 0 := by
  rw [Cert.Lib.ScatterRows.scatterAdd_rows_apply]
  refine congrArg (Z (ix2 r k) + ·) (Finset.sum_congr rfl fun e _ => ?_)
  rw [Cert.Lib.GatherCols.gather_rows_apply hN]
  rfl

end Cert.LibNeighbourSum

end
-- ==== Proof.LibAggregate.lean ====
/-
  NEIGHBOURHOOD SUMS AND A MATRIX ON THE RIGHT, ON THE EXTENDED REALS.

  A neighbourhood sum is `z + ∑ e, if sel e then g e else 0`: the edges `e` selected by `sel` each contribute
  their message `g e`, the others nothing, on top of a start value `z`.

  * Dividing by a non-zero real `c` is multiplying by the quotient `1 / c`, for every extended real numerator
    (`div_eq_mul_one_div`): the mean of a neighbourhood may be taken by either spelling.
  * For REAL messages, a real matrix column `w` and a real scale `ρ`, aggregating first and multiplying by the
    matrix afterwards is multiplying every message by the matrix first and aggregating the products
    (`agg_mul_right`): ∑ d, ((∑ e, [sel e] g e d) · ρ) · w d = (∑ e, [sel e] (∑ d, g e d · w d)) · ρ.
    This is distributivity and an exchange of two finite sums, which hold among the reals and fail at the
    infinities; so the messages, the column and the scale are assumed real and the identity is proved in ℝ.
  * A finite sum of reals, read in the extended reals, is the sum of the readings (`coe_sum`).
-/
import Idealize.ShloMosaic.PureOps.Ideal
import Mathlib.Data.EReal.Basic

noncomputable section

open scoped BigOperators

namespace Cert.LibAggregate

open Idealize.ShloMosaic

/-- The reading of a finite real sum in the extended reals is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real or nothing, read in the extended reals. -/
theorem coe_ite_zero (p : Prop) [Decidable p] (a : ℝ) :
    (if p then (a : EReal) else 0) = ((if p then a else 0 : ℝ) : EReal) := by
  split_ifs
  · rfl
  · exact EReal.coe_zero.symm

/-- Dividing by a non-zero real is multiplying by its reciprocal, itself the quotient `1 / c`. -/
theorem div_eq_mul_one_div {c : ℝ} (hc : c ≠ 0) (y : EReal) :
    Ideal.div y (c : EReal) = y * Ideal.div 1 (c : EReal) := by
  rw [Ideal.div_coe hc, Ideal.div_coe hc, one_mul]

/-- Over the reals: scaling the aggregate of each column and then applying the matrix column is applying the
    matrix column to every selected message and scaling the aggregate of the results. -/
theorem agg_mul_right_real {E D : Type} [Fintype E] [Fintype D] (sel : E → Prop) [DecidablePred sel]
    (g : E → D → ℝ) (w : D → ℝ) (ρ : ℝ) :
    ∑ d, ((∑ e, if sel e then g e d else 0) * ρ) * w d
      = (∑ e, if sel e then (∑ d, g e d * w d) else 0) * ρ := by
  simp_rw [Finset.sum_mul]
  rw [Finset.sum_comm]
  refine Finset.sum_congr rfl fun e _ => ?_
  by_cases h : sel e
  · simp only [if_pos h]
    rw [Finset.sum_mul]
    exact Finset.sum_congr rfl fun d _ => by ring
  · simp only [if_neg h, zero_mul, Finset.sum_const_zero]

/-- The same on the extended reals, for real messages, a real matrix column and a real scale, from the start
    value zero. -/
theorem agg_mul_right {E D : Type} [Fintype E] [Fintype D] (sel : E → Prop) [DecidablePred sel]
    (g : E → D → EReal) (hg : ∀ e d, ∃ r : ℝ, g e d = (r : EReal))
    (w : D → EReal) (hw : ∀ d, ∃ r : ℝ, w d = (r : EReal)) (ρ : EReal) (hρ : ∃ r : ℝ, ρ = (r : EReal)) :
    ∑ d, ((0 + ∑ e, if sel e then g e d else 0) * ρ) * w d
      = (0 + ∑ e, if sel e then (∑ d, g e d * w d) else 0) * ρ := by
  choose g' hg' using hg
  choose w' hw' using hw
  obtain ⟨r, rfl⟩ := hρ
  simp only [zero_add, hg', hw', ← EReal.coe_mul, ← coe_sum, coe_ite_zero]
  exact congrArg (fun t : ℝ => (t : EReal)) (agg_mul_right_real sel g' w' r)

end Cert.LibAggregate

end
-- ==== Proof.SpecLaws.lean ====
/-
  THE KERNEL'S SPELLING OF THE TWO LAYERS EQUALS THE REFERENCE'S, ROW BY ROW.

  Let the clamped degree be a non-zero real `c` and `ι = 1 / c`.
  * First layer (`layer1_eq_ref`): `(s k · ι) · Wl k q = (s k / c) · Wl k q` term by term, for every extended-real
    aggregate `s`: a quotient by a non-zero real is the product with its reciprocal.
  * Second layer (`layer2_eq_ref`): with real hidden rows `g e` on the edges and a real left matrix, the aggregate of
    the projected rows times `ι` is the sum over `k` of the aggregate of column `k` divided by `c`, times the matrix —
    aggregation commutes with a matrix on the right (`Cert.LibAggregate.agg_mul_right`) — and the three summands
    (left part, bias, right part) are added in another order, which the extended reals allow.
-/
import proofs.«131433_j38817914421629_2_alg».proof.Proof.Spec
import proofs.«131433_j38817914421629_2_alg».proof.Proof.LibAggregate

noncomputable section

open scoped BigOperators

namespace Cert.Sage

open Idealize.ShloMosaic Cert.LibAggregate

/-- The first layer's two spellings agree. -/
theorem layer1_eq_ref {cr : ℝ} (hcr : cr ≠ 0) (s : Fin 128 → EReal) (x : Fin 128 → EReal)
    (Wl : Fin 128 → Fin 128 → EReal) (b : Fin 128 → EReal) (Wr : Fin 128 → Fin 128 → EReal) (q : Fin 128) :
    layer1 s (Ideal.div 1 (cr : EReal)) x Wl b Wr q = layer1Ref s (cr : EReal) x Wl b Wr q := by
  unfold layer1 layer1Ref
  refine congrArg₂ max (congrArg₂ (· + ·) (congrArg₂ (· + ·) (Finset.sum_congr rfl fun k _ => ?_) rfl) rfl) rfl
  rw [div_eq_mul_one_div hcr (s k)]

/-- The second layer's two spellings agree, for real hidden rows and a real left matrix. -/
theorem layer2_eq_ref {E : Type} [Fintype E] (sel : E → Prop) [DecidablePred sel]
    (g : E → Fin 128 → EReal) (hg : ∀ e k, ∃ t : ℝ, g e k = (t : EReal))
    (Wl : Fin 128 → Fin 64 → EReal) (hW : ∀ k q, ∃ t : ℝ, Wl k q = (t : EReal)) {cr : ℝ} (hcr : cr ≠ 0)
    (h : Fin 128 → EReal) (Wr : Fin 128 → Fin 64 → EReal) (b : EReal) (q : Fin 64) :
    layer2 (nsum sel fun e => proj (g e) Wl q) (Ideal.div 1 (cr : EReal)) h Wr b q
      = layer2Ref (fun k => nsum sel fun e => g e k) (cr : EReal) h Wl Wr b q := by
  unfold layer2 layer2Ref nsum proj
  have hρ : ∃ t : ℝ, Ideal.div 1 (cr : EReal) = (t : EReal) := ⟨1 / cr, by rw [Ideal.div_coe hcr, one_mul]⟩
  have key := agg_mul_right sel g hg (fun k => Wl k q) (fun k => hW k q) (Ideal.div 1 (cr : EReal)) hρ
  have e1 : ∑ k : Fin 128, Ideal.div (0 + ∑ e, if sel e then g e k else 0) (cr : EReal) * Wl k q
      = ∑ k : Fin 128, ((0 + ∑ e, if sel e then g e k else 0) * Ideal.div 1 (cr : EReal)) * Wl k q :=
    Finset.sum_congr rfl fun k _ => by rw [div_eq_mul_one_div hcr (0 + ∑ e, if sel e then g e k else 0)]
  rw [e1, key]
  generalize (∑ k : Fin 128, h k * Wr k q) = A
  generalize (0 + ∑ e, if sel e then ∑ k : Fin 128, g e k * Wl k q else 0) * Ideal.div 1 (cr : EReal) = S
  rw [add_comm A S, add_right_comm]

end Cert.Sage

end
-- ==== Proof.Bridge.lean ====
/-
  THE KERNEL'S RESULT IS THE REFERENCE'S, FOR REAL-VALUED ARGUMENTS.

  Write `A(T)` for the aggregate of a table `T` (row `r` of `A(T)` is the sum of the rows `T[src e]` over the edges `e`
  with `dst e = r`), `c r ≥ 1` for node `r`'s clamped in-degree and `ι r = 1 / c r`.

  First layer. The reference divides the aggregate by the degree, the kernel multiplies it by the reciprocal column:
  `A(x)(r, k) / c r = A(x)(r, k) · ι r` because `c r` is a non-zero real. Nothing else differs, so the two hidden
  arrays are equal (`hidden_eq`) — for every extended-real argument.

  Second layer. The reference computes `((∑ k, (A(H)(r, k) / c r) · W2l (k, q)) + b2 q) + ∑ k, H (r, k) · W2r (k, q)`; the
  kernel projects first, `P = H · W2l`, and computes `((∑ k, H (r, k) · W2r (k, q)) + A(P)(r, q) · ι r) + b2 q`.
  The two sums over `k` of `H · W2r` are the same term; the three summands are added in a different order, which the
  extended reals allow; and `∑ k, (A(H)(r, k) · ι r) · W2l (k, q) = A(H · W2l)(r, q) · ι r` is distributivity and an
  exchange of finite sums, valid because `H`, `W2l` and `ι r` are real (`Cert.LibAggregate.agg_mul_right`): the
  aggregation commutes with a matrix applied on the right.
-/
import proofs.«131433_j38817914421629_2_alg».proof.Proof.Region0Value
import proofs.«131433_j38817914421629_2_alg».proof.Proof.Region1Value
import proofs.«131433_j38817914421629_2_alg».proof.Proof.HostGlue
import proofs.«131433_j38817914421629_2_alg».proof.Proof.RefRead
import proofs.«131433_j38817914421629_2_alg».proof.Proof.LibNeighbourSum
import proofs.«131433_j38817914421629_2_alg».proof.Proof.SpecLaws
import proofs.«131433_j38817914421629_2_alg».proof.Proof.LibLayout
import proofs.«131433_j38817914421629_2_alg».proof.Proof.LibReal

set_option maxRecDepth 16384

noncomputable section

open scoped BigOperators

namespace Cert.Sage.Bridge

open Cert.Sage Cert.LibReal Cert.LibNeighbourSum Cert.LibLayout
open Cert.ReferenceIdeal.Read Cert.ReferenceIdeal.RefRead
open Cert.KernelIdeal.Region0 (hidden projected)
open Cert.KernelIdeal.Region1 (output)
open Cert.KernelIdeal.Glue (aggregate64)
open Idealize.ShloMosaic Idealize.ShloMosaic.ValueIdx

variable (x0 : FVec Ideal Cert.ReferenceIdeal.S100000x128 .f32) (x1 : IVec Cert.ReferenceIdeal.S2x1600000 32)
  (x2 : FVec Ideal Cert.ReferenceIdeal.S128x128 .f32) (x3 : FVec Ideal Cert.ReferenceIdeal.S128 .f32)
  (x4 : FVec Ideal Cert.ReferenceIdeal.S128x128 .f32) (x5 : FVec Ideal Cert.ReferenceIdeal.S128x64 .f32)
  (x6 : FVec Ideal Cert.ReferenceIdeal.S64 .f32) (x7 : FVec Ideal Cert.ReferenceIdeal.S128x64 .f32)

/-! ## The kernel's result as one function of the arguments -/

/-- The reciprocal of the clamped degree, as a column. -/
def recip : Cert.KernelIdeal.S100000x1.Idx → EReal :=
  shapeCast Cert.KernelIdeal.S100000x1 (Host.divf (F := Ideal) (φ := .f32) (val_main_v18 (F := Ideal))
    (val_main_v19 (F := Ideal) x1) : Cert.KernelIdeal.S100000.Idx → EReal) Cert.KernelIdeal.Gen.shapeCasts_S100000_S100000x1

/-- The kernel's hidden array. -/
def hiddenK : Cert.KernelIdeal.S100000x128.Idx → EReal :=
  hidden (val_main_v13 (F := Ideal) x0 x1) (recip x1) x0 x2
    (shapeCast Cert.KernelIdeal.S1x128 (x3 : Cert.KernelIdeal.S128.Idx → EReal) Cert.KernelIdeal.Gen.shapeCasts_S128_S1x128) x4

/-- The kernel's result. -/
def resultK : Cert.KernelIdeal.S100000x64.Idx → EReal :=
  output (aggregate64 x1 (projected (hiddenK x0 x1 x2 x3 x4) x5)) (recip x1) (hiddenK x0 x1 x2 x3 x4) x7
    (shapeCast Cert.KernelIdeal.S1x64 (x6 : Cert.KernelIdeal.S64.Idx → EReal) Cert.KernelIdeal.Gen.shapeCasts_S64_S1x64)

/-! ## The first layer -/

/-- The host's quotient of two arrays reads, at an index, the quotient of the entries. -/
theorem hostDivf_apply {s : Shape} {φ : FTy} (a b : FVec Ideal s φ) (i : s.Idx) :
    Host.divf a b i = Ideal.div (a i) (b i) := rfl

/-- The reciprocal column at node `r` is one over its clamped degree. -/
theorem recip_apply (r : Fin 100000) :
    recip x1 (ix2 r (0 : Fin 1)) = Ideal.div 1 (val_main_v19 (F := Ideal) x1 (ix1 r)) := by
  unfold recip
  refine (shapeCast_a_a1_apply _ _ r 0).trans ?_
  rw [hostDivf_apply, val_main_v18_apply, val_main_cst_3_apply, Ideal.ofBits_def, ofBits_one]

/-- The first bias laid out as a row reads, at column `q`, the bias at `q`. -/
theorem bias1_row (q : Fin 128) :
    shapeCast Cert.KernelIdeal.S1x128 (x3 : Cert.KernelIdeal.S128.Idx → EReal) Cert.KernelIdeal.Gen.shapeCasts_S128_S1x128
      (ix2 (0 : Fin 1) q) = x3 (ix1 q) :=
  shapeCast_a_1a_apply (x3 : Cert.KernelIdeal.S128.Idx → EReal) _ 0 q

/-- The second bias laid out as a row reads, at column `q`, the bias at `q`. -/
theorem bias2_row (q : Fin 64) :
    shapeCast Cert.KernelIdeal.S1x64 (x6 : Cert.KernelIdeal.S64.Idx → EReal) Cert.KernelIdeal.Gen.shapeCasts_S64_S1x64
      (ix2 (0 : Fin 1) q) = x6 (ix1 q) :=
  shapeCast_a_1a_apply (x6 : Cert.KernelIdeal.S64.Idx → EReal) _ 0 q

/-- The two hidden arrays are equal: a quotient by the clamped degree is a product with its reciprocal. -/
theorem hidden_eq : hiddenK x0 x1 x2 x3 x4 = val_main_v29 (F := Ideal) x0 x1 x2 x3 x4 := by
  funext i
  obtain ⟨r, q, rfl⟩ : ∃ (r : Fin 100000) (q : Fin 128), i = ix2 r q := ⟨i 0, i 1, eq_ix2 i⟩
  obtain ⟨cr, hcr, hc⟩ := degree_real x1 r
  rw [Cert.ReferenceIdeal.RefRead.hidden_apply, hc, ← layer1_eq_ref hcr]
  show layer1 (fun k => val_main_v13 (F := Ideal) x0 x1 (ix2 r k)) (recip x1 (ix2 r (0 : Fin 1))) (fun k => x0 (ix2 r k))
      (fun k q => x2 (ix2 k q))
      (fun q => shapeCast Cert.KernelIdeal.S1x128 (x3 : Cert.KernelIdeal.S128.Idx → EReal)
        Cert.KernelIdeal.Gen.shapeCasts_S128_S1x128 (ix2 (0 : Fin 1) q))
      (fun k q => x4 (ix2 k q)) q = _
  rw [recip_apply, hc, show (fun q => shapeCast Cert.KernelIdeal.S1x128 (x3 : Cert.KernelIdeal.S128.Idx → EReal)
        Cert.KernelIdeal.Gen.shapeCasts_S128_S1x128 (ix2 (0 : Fin 1) q)) = (fun q => x3 (ix1 q))
      from funext fun q => bias1_row x3 q]

/-! ## The two aggregates at an entry -/

/-- The edges into node `r`. -/
abbrev into (r : Fin 100000) (e : Fin 1600000) : Prop :=
  (val_main_v38 (F := Ideal) x1 (ix2 e (0 : Fin 1))).toInt = (r.val : ℤ)

/-- The source node of edge `e`. -/
abbrev source (e : Fin 1600000) : Fin 100000 :=
  srcRow (N := 100000) (by decide) (val_main_v35 (F := Ideal) x1) e

/-- The reference's second aggregate at `(r, k)`: the hidden rows of the sources of node `r`'s incoming edges. -/
theorem aggregate_hidden_apply (r : Fin 100000) (k : Fin 128) :
    val_main_v39 (F := Ideal) x0 x1 x2 x3 x4 (ix2 r k)
      = nsum (into x1 r) (fun e => val_main_v29 (F := Ideal) x0 x1 x2 x3 x4 (ix2 (source x1 e) k)) := by
  unfold val_main_v39 val_main_v36
  refine (aggregate_apply (N := 100000) (C := 128) (E := 1600000) (by decide) _ _ _ _ _ _ r k).trans ?_
  rw [val_main_v37_apply, val_main_cst_6_apply, Ideal.ofBits_def, Ideal.ofBits_zero_f32]
  rfl

/-- The kernel's aggregate of a 64-wide table at `(r, q)`. -/
theorem aggregate64_apply (P : Cert.KernelIdeal.S100000x64.Idx → EReal) (r : Fin 100000) (q : Fin 64) :
    aggregate64 x1 P (ix2 r q) = nsum (into x1 r) (fun e => P (ix2 (source x1 e) q)) := by
  unfold aggregate64
  refine (aggregate_apply (N := 100000) (C := 64) (E := 1600000) (by decide) _ _ _ _ _ _ r q).trans ?_
  rw [broadcastInDim_apply _ _ _ (ix2 r q) ValueIdx.ix0 (fun a => a.elim0), ValueIdx.constant_apply, Ideal.ofBits_zero_f32]
  rfl

/-! ## The second layer -/

/-- For real-valued arguments the kernel's result is the reference's. -/
theorem result_eq (h0 : RealVec x0) (h2 : RealVec x2) (h3 : RealVec x3) (h4 : RealVec x4) (h5 : RealVec x5) :
    resultK x0 x1 x2 x3 x4 x5 x6 x7 = val_main_v54 (F := Ideal) x0 x1 x2 x3 x4 x5 x6 x7 := by
  funext i
  obtain ⟨r, q, rfl⟩ : ∃ (r : Fin 100000) (q : Fin 64), i = ix2 r q := ⟨i 0, i 1, eq_ix2 i⟩
  obtain ⟨cr, hcr, hc⟩ := degree_real x1 r
  have hH := hidden_real x0 x1 x2 x3 x4 h0 h2 h3 h4
  rw [Cert.ReferenceIdeal.RefRead.result_apply, hc,
    show (fun k => val_main_v39 (F := Ideal) x0 x1 x2 x3 x4 (ix2 r k))
        = (fun k => nsum (into x1 r) (fun e => val_main_v29 (F := Ideal) x0 x1 x2 x3 x4 (ix2 (source x1 e) k)))
      from funext fun k => aggregate_hidden_apply x0 x1 x2 x3 x4 r k,
    ← layer2_eq_ref (into x1 r) (fun e k => val_main_v29 (F := Ideal) x0 x1 x2 x3 x4 (ix2 (source x1 e) k))
        (fun e k => hH _) (fun k q => x5 (ix2 k q)) (fun k q => h5 _) hcr]
  show layer2 (aggregate64 x1 (projected (hiddenK x0 x1 x2 x3 x4) x5) (ix2 r q)) (recip x1 (ix2 r (0 : Fin 1)))
      (fun k => hiddenK x0 x1 x2 x3 x4 (ix2 r k)) (fun k q => x7 (ix2 k q))
      (shapeCast Cert.KernelIdeal.S1x64 (x6 : Cert.KernelIdeal.S64.Idx → EReal)
        Cert.KernelIdeal.Gen.shapeCasts_S64_S1x64 (ix2 (0 : Fin 1) q)) q = _
  rw [hidden_eq, recip_apply, hc, bias2_row, aggregate64_apply]
  rfl

end Cert.Sage.Bridge

end
-- ==== Proof.KernelValue.lean ====
/-
  THE IDEALIZED KERNEL'S RESULT, AS ONE FUNCTION OF ITS ARGUMENTS.

  The result buffer at the last boundary is the second region's output array after its 25 points: the second layer of
  the arrays that region is entered with. Those are, through the host operations between the regions, the aggregate
  of the first region's second result, the reciprocal column, the first region's hidden array, the right matrix and the
  second bias as a row; and the first region's two arrays are the first layer, and its projection, of the arrays the
  first region is entered with, which the host operations before it compute from the arguments. Composed, the result
  is `Bridge.resultK` of the eight arguments.
-/
import proofs.«131433_j38817914421629_2_alg».proof.Proof.KernelRun
import proofs.«131433_j38817914421629_2_alg».proof.Proof.Region0Value
import proofs.«131433_j38817914421629_2_alg».proof.Proof.Region1Value
import proofs.«131433_j38817914421629_2_alg».proof.Proof.HostGlue
import proofs.«131433_j38817914421629_2_alg».proof.Proof.Bridge

set_option maxRecDepth 16384

noncomputable section

namespace Cert.KernelIdeal.WholeValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first region its hidden array holds the first layer of the arguments. -/
theorem hidden_array (c : Dev nD) :
    W2 m ρ c (Proc.devRef .tc main_v26_0)
      = Cert.Sage.Bridge.hiddenK (m ((c : Thread nD τ).loc main_arg0)) (m ((c : Thread nD τ).loc main_arg1))
          (m ((c : Thread nD τ).loc main_arg2)) (m ((c : Thread nD τ).loc main_arg3)) (m ((c : Thread nD τ).loc main_arg4)) := by
  refine ((W2_arr m ρ c 7).trans (Region0.final7 (V1 m ρ) c)).trans ?_
  rw [Glue.aggregate_x, Glue.recip_column, Glue.entry_x, Glue.entry_W1l, Glue.bias1_row, Glue.entry_W1r]
  rfl

/-- After the first region its second output holds the hidden array through the second layer's left matrix. -/
theorem projected_array (c : Dev nD) :
    W2 m ρ c (Proc.devRef .tc main_v26_1)
      = Region0.projected (Cert.Sage.Bridge.hiddenK (m ((c : Thread nD τ).loc main_arg0)) (m ((c : Thread nD τ).loc main_arg1))
          (m ((c : Thread nD τ).loc main_arg2)) (m ((c : Thread nD τ).loc main_arg3)) (m ((c : Thread nD τ).loc main_arg4)))
          (m ((c : Thread nD τ).loc main_arg5)) := by
  refine ((W2_arr m ρ c 8).trans (Region0.final8 (V1 m ρ) c)).trans ?_
  rw [Glue.aggregate_x, Glue.recip_column, Glue.entry_x, Glue.entry_W1l, Glue.bias1_row, Glue.entry_W1r, Glue.entry_W2l]
  rfl

/-- The result buffer at the last boundary is the kernel's result function of the arguments. -/
theorem result_array (c : Dev nD) :
    W4 m ρ c (Proc.devRef .tc main_v40)
      = Cert.Sage.Bridge.resultK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine ((W4_arr m ρ c 5).trans (Region1.final5 (V3 m ρ) c)).trans ?_
  rw [Glue.aggregate_p, Glue.entry2_recip, Glue.recip_column, Glue.entry2_hidden, Glue.entry2_W2r, Glue.bias2_row,
    hidden_array, projected_array]
  rfl

end Cert.KernelIdeal.WholeValue

end
-- ==== Proof.Finite.lean ====
/-
  FINITE INPUTS ARE REAL-VALUED.

  The precondition is the conjunction, over the seven floating-point arguments, of "every entry `x` has |x| < +∞".
  On the extended reals |x| = max x (−x), and |x| < +∞ rules out both infinities, so the entry is a real number.
  The conjunction is a chain of single-bit `and`s of seven all-reductions; each all-reduction that is 1 had a 1 at
  every entry.
-/
import proofs.«131433_j38817914421629_2_alg».proof.Pre_finite_inputs
import proofs.«131433_j38817914421629_2_alg».proof.Proof.LibReal
import Idealize.ShloMosaic.Lib.ReduceAll
import Idealize.ShloMosaic.Lib.ValueIdx

noncomputable section

namespace Cert.Pre_finite_inputs.RealInputs

open Cert.Pre_finite_inputs Cert.LibReal
open Idealize.ShloMosaic

variable [Cert.Pre_finite_inputs.Facts]

/-- Under the precondition every floating-point argument is real-valued. -/
theorem real_inputs (a0 : FVec Ideal S100000x128 .f32) (a1 : IVec S2x1600000 32) (a2 : FVec Ideal S128x128 .f32)
    (a3 : FVec Ideal S128 .f32) (a4 : FVec Ideal S128x128 .f32) (a5 : FVec Ideal S128x64 .f32) (a6 : FVec Ideal S64 .f32)
    (a7 : FVec Ideal S128x64 .f32) (h : fn (F := Ideal) a0 a1 a2 a3 a4 a5 a6 a7 = fun _ => 1#1) :
    RealVec a0 ∧ RealVec a2 ∧ RealVec a3 ∧ RealVec a4 ∧ RealVec a5 ∧ RealVec a6 ∧ RealVec a7 := by
  have h0 := congrFun h ValueIdx.ix0
  dsimp only [fn, fn_part1] at h0
  change IntOp.andi (IntOp.andi (IntOp.andi (IntOp.andi (IntOp.andi (IntOp.andi _ _) _) _) _) _) _ = 1#1 at h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨r0, r2⟩ := IntOp.andi_eq_one.1 h0
  haveI : Subsingleton S_.Idx := ⟨fun a b => funext fun d => d.elim0⟩
  exact ⟨realVec_of_finite_test a0 fun i => Host.reduce_andi_all _ _ _ _ _ r0 i,
    realVec_of_finite_test a2 fun i => Host.reduce_andi_all _ _ _ _ _ r2 i,
    realVec_of_finite_test a3 fun i => Host.reduce_andi_all _ _ _ _ _ r3 i,
    realVec_of_finite_test a4 fun i => Host.reduce_andi_all _ _ _ _ _ r4 i,
    realVec_of_finite_test a5 fun i => Host.reduce_andi_all _ _ _ _ _ r5 i,
    realVec_of_finite_test a6 fun i => Host.reduce_andi_all _ _ _ _ _ r6 i,
    realVec_of_finite_test a7 fun i => Host.reduce_andi_all _ _ _ _ _ r7 i⟩

end Cert.Pre_finite_inputs.RealInputs

end
-- ==== Proof.lean ====
/- The certificate of the two-layer graph convolution (mean aggregation over incoming edges, a linear map of the
   aggregate plus a linear map of the node itself, a rectifier between the layers).

   The kernel computes both dense layers in two pipelined regions and leaves the gathers and scatter-adds to the host;
   it multiplies by the reciprocal of the clamped in-degree where the reference divides, and for the second layer it
   applies the left weight matrix BEFORE aggregating (64 columns to move instead of 128) where the reference aggregates
   first. On the extended reals, for real-valued arguments, the two programs compute the same array:
   * a quotient by a non-zero real is the product with its reciprocal;
   * aggregation over incoming edges commutes with a matrix applied on the right (distributivity and an exchange of
     finite sums, which is where real-valuedness is used);
   * the three summands of the second layer are added in a different order, which the extended reals allow.
   The precondition (every floating-point argument finite) gives real-valued arguments. The three frame claims are the
   generated frames (the reference's is its generated run with the result dropped); nothing was idealized by
   rewriting, so the idealization claim is trivial. -/
import proofs.«131433_j38817914421629_2_alg».proof.Defs
import proofs.«131433_j38817914421629_2_alg».proof.Proof.Gen.Kernel
import proofs.«131433_j38817914421629_2_alg».proof.Proof.Gen.Kernel.Skeleton
import proofs.«131433_j38817914421629_2_alg».proof.Proof.Gen.Kernel.Launch
import proofs.«131433_j38817914421629_2_alg».proof.Proof.Gen.Kernel.Points
import proofs.«131433_j38817914421629_2_alg».proof.Proof.Gen.Kernel.Frame
import proofs.«131433_j38817914421629_2_alg».proof.Proof.Gen.KernelIdeal
import proofs.«131433_j38817914421629_2_alg».proof.Proof.Gen.KernelIdeal.Skeleton
import proofs.«131433_j38817914421629_2_alg».proof.Proof.Gen.KernelIdeal.Launch
import proofs.«131433_j38817914421629_2_alg».proof.Proof.Gen.KernelIdeal.Points
import proofs.«131433_j38817914421629_2_alg».proof.Proof.Gen.KernelIdeal.Frame
import proofs.«131433_j38817914421629_2_alg».proof.Proof.Gen.ReferenceIdeal
import proofs.«131433_j38817914421629_2_alg».proof.Proof.Gen.Pre_finite_inputs
import proofs.«131433_j38817914421629_2_alg».proof.Proof.Gen.ReferenceIdeal.Run
import proofs.«131433_j38817914421629_2_alg».proof.Proof.Gen.ReferenceIdeal.Read
import proofs.«131433_j38817914421629_2_alg».proof.Proof.KernelRun
import proofs.«131433_j38817914421629_2_alg».proof.Proof.KernelValue
import proofs.«131433_j38817914421629_2_alg».proof.Proof.Bridge
import proofs.«131433_j38817914421629_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the kernel's result function of the arguments in their result buffer: the
    kernel by its run and the value of its last boundary, the reference by its run and the bridge, whose real-valued
    arguments the precondition supplies. -/
theorem algebraic : Cert.algebraic_KernelIdeal_ReferenceIdeal := by
  intro m ρ m' ρ' hpre hagree
  refine ⟨fun c => Cert.Sage.Bridge.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.WholeValue.result_array m ρ c), (h c).2⟩)
      (Cert.KernelIdeal.Whole.run_result m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7⟩ := hagree c
    obtain ⟨r0, r2, r3, r4, r5, -, -⟩ := Cert.Pre_finite_inputs.RealInputs.real_inputs _ _ _ _ _ _ _ _ (hpre c)
    rw [(h c).1, Cert.ReferenceIdeal.Read.val_main_v54_eq, a0, a1, a2, a3, a4, a5, a6, a7]
    exact (Cert.Sage.Bridge.result_eq _ _ _ _ _ _ _ _ r0 r2 r3 r4 r5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
